-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S20000x128 : Shape := ⟨2, ![20000, 128]⟩
abbrev S500000 : Shape := ⟨1, ![500000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S500000 : S_.BroadcastsInDim S500000 (![] : Fin 0 → Fin S500000.rank)
  reducesTo_S500000_S_d0 : S500000.ReducesTo [0] S_

variable [Facts]

def fn_part4 {F : FTy → Type} [FloatOps F] (main_arg2 : IVec S500000 32) (main_arg3 : IVec S500000 32) (main_v63 : IVec S_ 1) (main_v67 : IVec S_ 1) : IVec S_ 1 :=
  let main_v68 : IVec S_ 1 := andi main_v63 main_v67
  let main_c_26 : IVec S_ 32 := constantI S_ 32 0#32
  let main_v69 : IVec S500000 32 := broadcastInDim S500000 ![] bcast_S_S500000 main_c_26
  let main_v70 : IVec S500000 1 := cmpi .sge main_arg2 main_v69
  let main_c_27 : IVec S_ 1 := constantI S_ 1 1#1
  let main_v71 : IVec S_ 1 := (fun x v => Host.reduce IntOp.andi x v reducesTo_S500000_S_d0 h_S_) main_v70 main_c_27
  let main_v72 : IVec S_ 1 := andi main_v68 main_v71
  let main_c_28 : IVec S_ 32 := constantI S_ 32 0#32
  let main_v73 : IVec S500000 32 := broadcastInDim S500000 ![] bcast_S_S500000 main_c_28
  let main_v74 : IVec S500000 1 := cmpi .sge main_arg3 main_v73
  let main_c_29 : IVec S_ 1 := constantI S_ 1 1#1
  let main_v75 : IVec S_ 1 := (fun x v => Host.reduce IntOp.andi x v reducesTo_S500000_S_d0 h_S_) main_v74 main_c_29
  let main_v76 : IVec S_ 1 := andi main_v72 main_v75
  main_v76

def fn_part3 {F : FTy → Type} [FloatOps F] (main_arg2 : IVec S500000 32) (main_arg3 : IVec S500000 32) (main_arg15 : FVec F S128 .f32) (main_arg16 : FVec F S128 .f32) (main_arg17 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg16
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg3 main_v63 main_v67

def fn_part2 {F : FTy → Type} [FloatOps F] (main_arg2 : IVec S500000 32) (main_arg3 : IVec S500000 32) (main_arg11 : FVec F S128x128 .f32) (main_arg12 : FVec F S128x128 .f32) (main_arg13 : FVec F S128x128 .f32) (main_arg14 : FVec F S128 .f32) (main_arg15 : FVec F S128 .f32) (main_arg16 : FVec F S128 .f32) (main_arg17 : FVec F S128 .f32) (main_v33 : IVec S_ 1) : IVec S_ 1 :=
  let main_v34 : FVec F S128x128 .f32 := Host.absf main_arg11
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg13
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg14
  let main_cst_18 : FVec F S_ .f32 := constant S_ .f32 0x7F800000#32
  let main_v50 : FVec F S128 .f32 := broadcastInDim S128 ![] bcast_S_S128 main_cst_18
  fn_part3 (F := F) main_arg2 main_arg3 main_arg15 main_arg16 main_arg17 main_v48 main_v49 main_v50

def fn_part1 {F : FTy → Type} [FloatOps F] (main_arg2 : IVec S500000 32) (main_arg3 : IVec S500000 32) (main_arg8 : FVec F S128x128 .f32) (main_arg9 : FVec F S128x128 .f32) (main_arg10 : FVec F S128x128 .f32) (main_arg11 : FVec F S128x128 .f32) (main_arg12 : FVec F S128x128 .f32) (main_arg13 : FVec F S128x128 .f32) (main_arg14 : FVec F S128 .f32) (main_arg15 : FVec F S128 .f32) (main_arg16 : FVec F S128 .f32) (main_arg17 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg10
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg3 main_arg11 main_arg12 main_arg13 main_arg14 main_arg15 main_arg16 main_arg17 main_v33

def fn {F : FTy → Type} [FloatOps F] (main_arg0 : FVec F S100000x128 .f32) (main_arg1 : FVec F S20000x128 .f32) (main_arg2 : IVec S500000 32) (main_arg3 : IVec S500000 32) (main_arg4 : IVec S500000 32) (main_arg5 : IVec S500000 32) (main_arg6 : FVec F S128x128 .f32) (main_arg7 : FVec F S128x128 .f32) (main_arg8 : FVec F S128x128 .f32) (main_arg9 : FVec F S128x128 .f32) (main_arg10 : FVec F S128x128 .f32) (main_arg11 : FVec F S128x128 .f32) (main_arg12 : FVec F S128x128 .f32) (main_arg13 : FVec F S128x128 .f32) (main_arg14 : FVec F S128 .f32) (main_arg15 : FVec F S128 .f32) (main_arg16 : FVec F S128 .f32) (main_arg17 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg3 main_arg8 main_arg9 main_arg10 main_arg11 main_arg12 main_arg13 main_arg14 main_arg15 main_arg16 main_arg17 main_v13 main_v16
-- ==== Kernel.lean ====
abbrev S100000x128 : Shape := ⟨2, ![100000, 128]⟩
abbrev S20000x128 : Shape := ⟨2, ![20000, 128]⟩
abbrev S500000 : Shape := ⟨1, ![500000]⟩
abbrev S128x128 : Shape := ⟨2, ![128, 128]⟩
abbrev S128 : Shape := ⟨1, ![128]⟩
abbrev S_ : Shape := ⟨0, ![]⟩
abbrev S500000x1 : Shape := ⟨2, ![500000, 1]⟩
abbrev S500000x128 : Shape := ⟨2, ![500000, 128]⟩
abbrev S20000x1 : Shape := ⟨2, ![20000, 1]⟩
abbrev S5000x128 : Shape := ⟨2, ![5000, 128]⟩
abbrev S5000x1 : Shape := ⟨2, ![5000, 1]⟩
abbrev S1x128 : Shape := ⟨2, ![1, 128]⟩
abbrev S100000x1 : Shape := ⟨2, ![100000, 1]⟩

abbrev nBuf : Space → Nat
  | .hbm => 185
  | .vmem => 44
  | .smem => 0
  | _ => 0

abbrev hbmTy0_0 (i : Nat) : BufTy := match i % 128 with
  | 0 => ⟨S100000x128, .f32⟩
  | 1 => ⟨S20000x128, .f32⟩
  | 2 => ⟨S500000, .i32⟩
  | 3 => ⟨S500000, .i32⟩
  | 4 => ⟨S500000, .i32⟩
  | 5 => ⟨S500000, .i32⟩
  | 6 => ⟨S128x128, .f32⟩
  | 7 => ⟨S128x128, .f32⟩
  | 8 => ⟨S128x128, .f32⟩
  | 9 => ⟨S128x128, .f32⟩
  | 10 => ⟨S128x128, .f32⟩
  | 11 => ⟨S128x128, .f32⟩
  | 12 => ⟨S128x128, .f32⟩
  | 13 => ⟨S128x128, .f32⟩
  | 14 => ⟨S128, .f32⟩
  | 15 => ⟨S128, .f32⟩
  | 16 => ⟨S128, .f32⟩
  | 17 => ⟨S128, .f32⟩
  | 18 => ⟨S_, .i32⟩
  | 19 => ⟨S500000, .i32⟩
  | 20 => ⟨S500000, .i1⟩
  | 21 => ⟨S_, .i32⟩
  | 22 => ⟨S500000, .i32⟩
  | 23 => ⟨S500000, .i32⟩
  | 24 => ⟨S500000, .i32⟩
  | 25 => ⟨S500000x1, .i32⟩
  | 26 => ⟨S500000x128, .f32⟩
  | 27 => ⟨S_, .f32⟩
  | 28 => ⟨S20000x128, .f32⟩
  | 29 => ⟨S_, .i32⟩
  | 30 => ⟨S500000, .i32⟩
  | 31 => ⟨S500000, .i1⟩
  | 32 => ⟨S_, .i32⟩
  | 33 => ⟨S500000, .i32⟩
  | 34 => ⟨S500000, .i32⟩
  | 35 => ⟨S500000, .i32⟩
  | 36 => ⟨S500000x1, .i32⟩
  | 37 => ⟨S20000x128, .f32⟩
  | 38 => ⟨S_, .f32⟩
  | 39 => ⟨S500000x1, .f32⟩
  | 40 => ⟨S_, .f32⟩
  | 41 => ⟨S20000x1, .f32⟩
  | 42 => ⟨S_, .i32⟩
  | 43 => ⟨S500000, .i32⟩
  | 44 => ⟨S500000, .i1⟩
  | 45 => ⟨S_, .i32⟩
  | 46 => ⟨S500000, .i32⟩
  | 47 => ⟨S500000, .i32⟩
  | 48 => ⟨S500000, .i32⟩
  | 49 => ⟨S500000x1, .i32⟩
  | 50 => ⟨S20000x1, .f32⟩
  | 51 => ⟨S128x128, .bf16⟩
  | 52 => ⟨S128x128, .bf16⟩
  | 53 => ⟨S20000x128, .bf16⟩
  | 54 => ⟨S_, .i32⟩
  | 55 => ⟨S500000, .i32⟩
  | 56 => ⟨S500000, .i1⟩
  | 57 => ⟨S_, .i32⟩
  | 58 => ⟨S500000, .i32⟩
  | 59 => ⟨S500000, .i32⟩
  | 60 => ⟨S500000, .i32⟩
  | 61 => ⟨S500000x1, .i32⟩
  | 62 => ⟨S500000x128, .f32⟩
  | 63 => ⟨S_, .f32⟩
  | 64 => ⟨S100000x128, .f32⟩
  | 65 => ⟨S_, .i32⟩
  | 66 => ⟨S500000, .i32⟩
  | 67 => ⟨S500000, .i1⟩
  | 68 => ⟨S_, .i32⟩
  | 69 => ⟨S500000, .i32⟩
  | 70 => ⟨S500000, .i32⟩
  | 71 => ⟨S500000, .i32⟩
  | 72 => ⟨S500000x1, .i32⟩
  | 73 => ⟨S100000x128, .f32⟩
  | 74 => ⟨S_, .f32⟩
  | 75 => ⟨S500000x1, .f32⟩
  | 76 => ⟨S_, .f32⟩
  | 77 => ⟨S100000x1, .f32⟩
  | 78 => ⟨S_, .i32⟩
  | 79 => ⟨S500000, .i32⟩
  | 80 => ⟨S500000, .i1⟩
  | 81 => ⟨S_, .i32⟩
  | 82 => ⟨S500000, .i32⟩
  | 83 => ⟨S500000, .i32⟩
  | 84 => ⟨S500000, .i32⟩
  | 85 => ⟨S500000x1, .i32⟩
  | 86 => ⟨S100000x1, .f32⟩
  | 87 => ⟨S128x128, .bf16⟩
  | 88 => ⟨S128x128, .bf16⟩
  | 89 => ⟨S100000x128, .bf16⟩
  | 90 => ⟨S_, .i32⟩
  | 91 => ⟨S500000, .i32⟩
  | 92 => ⟨S500000, .i1⟩
  | 93 => ⟨S_, .i32⟩
  | 94 => ⟨S500000, .i32⟩
  | 95 => ⟨S500000, .i32⟩
  | 96 => ⟨S500000, .i32⟩
  | 97 => ⟨S500000x1, .i32⟩
  | 98 => ⟨S500000x128, .bf16⟩
  | 99 => ⟨S500000x128, .f32⟩
  | 100 => ⟨S_, .f32⟩
  | 101 => ⟨S20000x128, .f32⟩
  | 102 => ⟨S_, .i32⟩
  | 103 => ⟨S500000, .i32⟩
  | 104 => ⟨S500000, .i1⟩
  | 105 => ⟨S_, .i32⟩
  | 106 => ⟨S500000, .i32⟩
  | 107 => ⟨S500000, .i32⟩
  | 108 => ⟨S500000, .i32⟩
  | 109 => ⟨S500000x1, .i32⟩
  | 110 => ⟨S20000x128, .f32⟩
  | 111 => ⟨S_, .f32⟩
  | 112 => ⟨S500000x1, .f32⟩
  | 113 => ⟨S_, .f32⟩
  | 114 => ⟨S20000x1, .f32⟩
  | 115 => ⟨S_, .i32⟩
  | 116 => ⟨S500000, .i32⟩
  | 117 => ⟨S500000, .i1⟩
  | 118 => ⟨S_, .i32⟩
  | 119 => ⟨S500000, .i32⟩
  | 120 => ⟨S500000, .i32⟩
  | 121 => ⟨S500000, .i32⟩
  | 122 => ⟨S500000x1, .i32⟩
  | 123 => ⟨S20000x1, .f32⟩
  | 124 => ⟨S128x128, .bf16⟩
  | 125 => ⟨S128x128, .bf16⟩
  | 126 => ⟨S20000x128, .f32⟩
  | 127 => ⟨S_, .i32⟩
  | _ => ⟨S100000x128, .f32⟩

abbrev hbmTy0_1 (i : Nat) : BufTy := match i % 128 with
  | 0 => ⟨S500000, .i32⟩
  | 1 => ⟨S500000, .i1⟩
  | 2 => ⟨S_, .i32⟩
  | 3 => ⟨S500000, .i32⟩
  | 4 => ⟨S500000, .i32⟩
  | 5 => ⟨S500000, .i32⟩
  | 6 => ⟨S500000x1, .i32⟩
  | 7 => ⟨S500000x128, .bf16⟩
  | 8 => ⟨S500000x128, .f32⟩
  | 9 => ⟨S_, .f32⟩
  | 10 => ⟨S100000x128, .f32⟩
  | 11 => ⟨S_, .i32⟩
  | 12 => ⟨S500000, .i32⟩
  | 13 => ⟨S500000, .i1⟩
  | 14 => ⟨S_, .i32⟩
  | 15 => ⟨S500000, .i32⟩
  | 16 => ⟨S500000, .i32⟩
  | 17 => ⟨S500000, .i32⟩
  | 18 => ⟨S500000x1, .i32⟩
  | 19 => ⟨S100000x128, .f32⟩
  | 20 => ⟨S_, .f32⟩
  | 21 => ⟨S500000x1, .f32⟩
  | 22 => ⟨S_, .f32⟩
  | 23 => ⟨S100000x1, .f32⟩
  | 24 => ⟨S_, .i32⟩
  | 25 => ⟨S500000, .i32⟩
  | 26 => ⟨S500000, .i1⟩
  | 27 => ⟨S_, .i32⟩
  | 28 => ⟨S500000, .i32⟩
  | 29 => ⟨S500000, .i32⟩
  | 30 => ⟨S500000, .i32⟩
  | 31 => ⟨S500000x1, .i32⟩
  | 32 => ⟨S100000x1, .f32⟩
  | 33 => ⟨S128x128, .bf16⟩
  | 34 => ⟨S128x128, .bf16⟩
  | 35 => ⟨S100000x128, .f32⟩
  | 36 => ⟨S_, .i32⟩
  | 37 => ⟨S500000, .i32⟩
  | 38 => ⟨S500000, .i1⟩
  | 39 => ⟨S_, .i32⟩
  | 40 => ⟨S500000, .i32⟩
  | 41 => ⟨S500000, .i32⟩
  | 42 => ⟨S500000, .i32⟩
  | 43 => ⟨S500000x1, .i32⟩
  | 44 => ⟨S500000x128, .f32⟩
  | 45 => ⟨S_, .i32⟩
  | 46 => ⟨S500000, .i32⟩
  | 47 => ⟨S500000, .i1⟩
  | 48 => ⟨S_, .i32⟩
  | 49 => ⟨S500000, .i32⟩
  | 50 => ⟨S500000, .i32⟩
  | 51 => ⟨S500000, .i32⟩
  | 52 => ⟨S500000x1, .i32⟩
  | 53 => ⟨S500000x128, .f32⟩
  | 54 => ⟨S500000x128, .f32⟩
  | 55 => ⟨S_, .f32⟩
  | 56 => ⟨S500000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .bf16⟩
  | .local _ .vmem, ⟨7, _⟩ => ⟨S128x128, .bf16⟩
  | .local _ .vmem, ⟨8, _⟩ => ⟨S128, .f32⟩
  | .local _ .vmem, ⟨9, _⟩ => ⟨S5000x128, .bf16⟩
  | .local _ .vmem, ⟨10, _⟩ => ⟨S5000x128, .bf16⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .bf16⟩
  | .local _ .vmem, ⟨18, _⟩ => ⟨S128x128, .bf16⟩
  | .local _ .vmem, ⟨19, _⟩ => ⟨S128, .f32⟩
  | .local _ .vmem, ⟨20, _⟩ => ⟨S5000x128, .bf16⟩
  | .local _ .vmem, ⟨21, _⟩ => ⟨S5000x128, .bf16⟩
  | .local _ .vmem, ⟨22, _⟩ => ⟨S5000x128, .f32⟩
  | .local _ .vmem, ⟨23, _⟩ => ⟨S5000x128, .f32⟩
  | .local _ .vmem, ⟨24, _⟩ => ⟨S5000x1, .f32⟩
  | .local _ .vmem, ⟨25, _⟩ => ⟨S5000x1, .f32⟩
  | .local _ .vmem, ⟨26, _⟩ => ⟨S5000x128, .bf16⟩
  | .local _ .vmem, ⟨27, _⟩ => ⟨S5000x128, .bf16⟩
  | .local _ .vmem, ⟨28, _⟩ => ⟨S128x128, .bf16⟩
  | .local _ .vmem, ⟨29, _⟩ => ⟨S128x128, .bf16⟩
  | .local _ .vmem, ⟨30, _⟩ => ⟨S128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x1, .f32⟩
  | .local _ .vmem, ⟨36, _⟩ => ⟨S5000x1, .f32⟩
  | .local _ .vmem, ⟨37, _⟩ => ⟨S5000x128, .bf16⟩
  | .local _ .vmem, ⟨38, _⟩ => ⟨S5000x128, .bf16⟩
  | .local _ .vmem, ⟨39, _⟩ => ⟨S128x128, .bf16⟩
  | .local _ .vmem, ⟨40, _⟩ => ⟨S128x128, .bf16⟩
  | .local _ .vmem, ⟨41, _⟩ => ⟨S128, .f32⟩
  | .local _ .vmem, ⟨42, _⟩ => ⟨S5000x128, .f32⟩
  | .local _ .vmem, ⟨43, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_c_1 : Ref sig .tc := ⟨.hbm, 29, rfl⟩
abbrev main_v8 : Ref sig .tc := ⟨.hbm, 30, rfl⟩
abbrev main_v9 : Ref sig .tc := ⟨.hbm, 31, rfl⟩
abbrev main_c_2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_3 : Ref sig .tc := ⟨.hbm, 38, rfl⟩
abbrev main_v15 : Ref sig .tc := ⟨.hbm, 39, rfl⟩
abbrev main_cst_4 : Ref sig .tc := ⟨.hbm, 40, rfl⟩
abbrev main_v16 : Ref sig .tc := ⟨.hbm, 41, rfl⟩
abbrev main_c_5 : Ref sig .tc := ⟨.hbm, 42, rfl⟩
abbrev main_v17 : Ref sig .tc := ⟨.hbm, 43, rfl⟩
abbrev main_v18 : Ref sig .tc := ⟨.hbm, 44, rfl⟩
abbrev main_c_6 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_7 : Ref sig .tc := ⟨.hbm, 54, rfl⟩
abbrev main_v27 : Ref sig .tc := ⟨.hbm, 55, rfl⟩
abbrev main_v28 : Ref sig .tc := ⟨.hbm, 56, rfl⟩
abbrev main_c_8 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_9 : Ref sig .tc := ⟨.hbm, 63, rfl⟩
abbrev main_v34 : Ref sig .tc := ⟨.hbm, 64, rfl⟩
abbrev main_c_10 : Ref sig .tc := ⟨.hbm, 65, rfl⟩
abbrev main_v35 : Ref sig .tc := ⟨.hbm, 66, rfl⟩
abbrev main_v36 : Ref sig .tc := ⟨.hbm, 67, rfl⟩
abbrev main_c_11 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_12 : Ref sig .tc := ⟨.hbm, 74, rfl⟩
abbrev main_v42 : Ref sig .tc := ⟨.hbm, 75, rfl⟩
abbrev main_cst_13 : Ref sig .tc := ⟨.hbm, 76, rfl⟩
abbrev main_v43 : Ref sig .tc := ⟨.hbm, 77, rfl⟩
abbrev main_c_14 : Ref sig .tc := ⟨.hbm, 78, rfl⟩
abbrev main_v44 : Ref sig .tc := ⟨.hbm, 79, rfl⟩
abbrev main_v45 : Ref sig .tc := ⟨.hbm, 80, rfl⟩
abbrev main_c_15 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_c_16 : Ref sig .tc := ⟨.hbm, 90, rfl⟩
abbrev main_v54 : Ref sig .tc := ⟨.hbm, 91, rfl⟩
abbrev main_v55 : Ref sig .tc := ⟨.hbm, 92, rfl⟩
abbrev main_c_17 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_18 : Ref sig .tc := ⟨.hbm, 100, rfl⟩
abbrev main_v62 : Ref sig .tc := ⟨.hbm, 101, rfl⟩
abbrev main_c_19 : Ref sig .tc := ⟨.hbm, 102, rfl⟩
abbrev main_v63 : Ref sig .tc := ⟨.hbm, 103, rfl⟩
abbrev main_v64 : Ref sig .tc := ⟨.hbm, 104, rfl⟩
abbrev main_c_20 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_21 : Ref sig .tc := ⟨.hbm, 111, rfl⟩
abbrev main_v70 : Ref sig .tc := ⟨.hbm, 112, rfl⟩
abbrev main_cst_22 : Ref sig .tc := ⟨.hbm, 113, rfl⟩
abbrev main_v71 : Ref sig .tc := ⟨.hbm, 114, rfl⟩
abbrev main_c_23 : Ref sig .tc := ⟨.hbm, 115, rfl⟩
abbrev main_v72 : Ref sig .tc := ⟨.hbm, 116, rfl⟩
abbrev main_v73 : Ref sig .tc := ⟨.hbm, 117, rfl⟩
abbrev main_c_24 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_c_25 : Ref sig .tc := ⟨.hbm, 127, rfl⟩
abbrev main_v82 : Ref sig .tc := ⟨.hbm, 128, rfl⟩
abbrev main_v83 : Ref sig .tc := ⟨.hbm, 129, rfl⟩
abbrev main_c_26 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_cst_27 : Ref sig .tc := ⟨.hbm, 137, rfl⟩
abbrev main_v90 : Ref sig .tc := ⟨.hbm, 138, rfl⟩
abbrev main_c_28 : Ref sig .tc := ⟨.hbm, 139, rfl⟩
abbrev main_v91 : Ref sig .tc := ⟨.hbm, 140, rfl⟩
abbrev main_v92 : Ref sig .tc := ⟨.hbm, 141, rfl⟩
abbrev main_c_29 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_cst_30 : Ref sig .tc := ⟨.hbm, 148, rfl⟩
abbrev main_v98 : Ref sig .tc := ⟨.hbm, 149, rfl⟩
abbrev main_cst_31 : Ref sig .tc := ⟨.hbm, 150, rfl⟩
abbrev main_v99 : Ref sig .tc := ⟨.hbm, 151, rfl⟩
abbrev main_c_32 : Ref sig .tc := ⟨.hbm, 152, rfl⟩
abbrev main_v100 : Ref sig .tc := ⟨.hbm, 153, rfl⟩
abbrev main_v101 : Ref sig .tc := ⟨.hbm, 154, rfl⟩
abbrev main_c_33 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_c_34 : Ref sig .tc := ⟨.hbm, 164, rfl⟩
abbrev main_v110 : Ref sig .tc := ⟨.hbm, 165, rfl⟩
abbrev main_v111 : Ref sig .tc := ⟨.hbm, 166, rfl⟩
abbrev main_c_35 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_c_36 : Ref sig .tc := ⟨.hbm, 173, rfl⟩
abbrev main_v117 : Ref sig .tc := ⟨.hbm, 174, rfl⟩
abbrev main_v118 : Ref sig .tc := ⟨.hbm, 175, rfl⟩
abbrev main_c_37 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_cst_38 : Ref sig .tc := ⟨.hbm, 183, rfl⟩
abbrev main_v125 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S20000x128 : S_.BroadcastsInDim S20000x128 (![] : Fin 0 → Fin S20000x128.rank)
  bcast_S_S500000x1 : S_.BroadcastsInDim S500000x1 (![] : Fin 0 → Fin S500000x1.rank)
  bcast_S_S20000x1 : S_.BroadcastsInDim S20000x1 (![] : Fin 0 → Fin S20000x1.rank)
  bitsLt_bf16_f32 : FTy.bits .bf16 < FTy.bits .f32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  bcast_S_S100000x1 : S_.BroadcastsInDim S100000x1 (![] : Fin 0 → Fin S100000x1.rank)
  reducesTo_S500000x128_S500000_d1 : S500000x128.ReducesTo [1] S500000
  h_S_ : 0 < S_.numel
  gather_S100000x128_S500000x1_S500000x128_1_0_n_n_0_1_1128_wf : GatherDims.WF S100000x128 S500000x1 S500000x128 [1] [0] [] [0] [] 1 ![1, 128]
  scatter_S20000x128_S500000x1_S500000x128_1_0_0_1_wf : ScatterDims.WF S20000x128 S500000x1 S500000x128 [1] [0] [0] 1
  scatter_S20000x1_S500000x1_S500000x1_1_0_0_1_wf : ScatterDims.WF S20000x1 S500000x1 S500000x1 [1] [0] [0] 1
  dot_S5000x128_S128x128_S5000x128_1_0_0_1_n_n_wf : DotDims.WF S5000x128 S128x128 S5000x128 [1] [0] [0] [1] [] []
  gather_S20000x128_S500000x1_S500000x128_1_0_n_n_0_1_1128_wf : GatherDims.WF S20000x128 S500000x1 S500000x128 [1] [0] [] [0] [] 1 ![1, 128]
  scatter_S100000x128_S500000x1_S500000x128_1_0_0_1_wf : ScatterDims.WF S100000x128 S500000x1 S500000x128 [1] [0] [0] 1
  scatter_S100000x1_S500000x1_S500000x1_1_0_0_1_wf : ScatterDims.WF S100000x1 S500000x1 S500000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S20000x128.size a
  hwx0_0 : ∀ i : grid0.Coords, EltTy.bits .f32 = 32 ∨ (Rect.block (s := S20000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S20000x1.size a
  hwx0_1 : ∀ i : grid0.Coords, EltTy.bits .f32 = 32 ∨ (Rect.block (s := S20000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S20000x128.size a
  hwx0_2 : ∀ i : grid0.Coords, EltTy.bits .f32 = 32 ∨ (Rect.block (s := S20000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S20000x128.size a
  hwx0_6 : ∀ i : grid0.Coords, EltTy.bits .bf16 = 32 ∨ (Rect.block (s := S20000x128) S5000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .bf16 = 32 ∨ (Rect.block (s := S100000x128) S5000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S20000x128.size a
  hwx2_0 : ∀ i : grid2.Coords, EltTy.bits .f32 = 32 ∨ (Rect.block (s := S20000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S20000x1.size a
  hwx2_1 : ∀ i : grid2.Coords, EltTy.bits .f32 = 32 ∨ (Rect.block (s := S20000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S20000x128.size a
  hwx2_2 : ∀ i : grid2.Coords, EltTy.bits .bf16 = 32 ∨ (Rect.block (s := S20000x128) S5000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S20000x128.size a
  hwx2_6 : ∀ i : grid2.Coords, EltTy.bits .f32 = 32 ∨ (Rect.block (s := S20000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .bf16 = 32 ∨ (Rect.block (s := S100000x128) S5000x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .bf16 = 32 ∨ (Rect.block (s := S128x128) S128x128.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S20000x128_S500000x1_S500000x128_1_0_0_1 : ScatterDims S20000x128 S500000x1 S500000x128 where
  updateWindowDims := [1]
  insertedWindowDims := [0]
  scatterDimsToOperandDims := [0]
  indexVectorDim := 1
  wf := scatter_S20000x128_S500000x1_S500000x128_1_0_0_1_wf
def scatter_S20000x1_S500000x1_S500000x1_1_0_0_1 : ScatterDims S20000x1 S500000x1 S500000x1 where
  updateWindowDims := [1]
  insertedWindowDims := [0]
  scatterDimsToOperandDims := [0]
  indexVectorDim := 1
  wf := scatter_S20000x1_S500000x1_S500000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S20000x128_S500000x1_S500000x128_1_0_n_n_0_1_1128 : GatherDims S20000x128 S500000x1 S500000x128 where
  offsetDims := [1]
  collapsedSliceDims := [0]
  operandBatchingDims := []
  startIndicesBatchingDims := []
  startIndexMap := [0]
  indexVectorDim := 1
  sliceSizes := ![1, 128]
  wf := gather_S20000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000x1_S500000x1_S500000x1_1_0_0_1 : ScatterDims S100000x1 S500000x1 S500000x1 where
  updateWindowDims := [1]
  insertedWindowDims := [0]
  scatterDimsToOperandDims := [0]
  indexVectorDim := 1
  wf := scatter_S100000x1_S500000x1_S500000x1_1_0_0_1_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg14) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v51) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg15) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v53) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v69) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v78) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v79) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v80) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg16) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v81) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v97) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v106) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v53) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v107) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v108) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg17) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v109) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S20000x128 : Shape := ⟨2, ![20000, 128]⟩
abbrev S500000 : Shape := ⟨1, ![500000]⟩
abbrev S128x128 : Shape := ⟨2, ![128, 128]⟩
abbrev S128 : Shape := ⟨1, ![128]⟩
abbrev S_ : Shape := ⟨0, ![]⟩
abbrev S500000x1 : Shape := ⟨2, ![500000, 1]⟩
abbrev S500000x128 : Shape := ⟨2, ![500000, 128]⟩
abbrev S20000x1 : Shape := ⟨2, ![20000, 1]⟩
abbrev S1x128 : Shape := ⟨2, ![1, 128]⟩
abbrev S100000x1 : Shape := ⟨2, ![100000, 1]⟩

abbrev nBuf : Space → Nat
  | .hbm => 165
  | .vmem => 0
  | .smem => 0
  | _ => 0

abbrev hbmTy0_0 (i : Nat) : BufTy := match i % 128 with
  | 0 => ⟨S100000x128, .f32⟩
  | 1 => ⟨S20000x128, .f32⟩
  | 2 => ⟨S500000, .i32⟩
  | 3 => ⟨S500000, .i32⟩
  | 4 => ⟨S500000, .i32⟩
  | 5 => ⟨S500000, .i32⟩
  | 6 => ⟨S128x128, .f32⟩
  | 7 => ⟨S128x128, .f32⟩
  | 8 => ⟨S128x128, .f32⟩
  | 9 => ⟨S128x128, .f32⟩
  | 10 => ⟨S128x128, .f32⟩
  | 11 => ⟨S128x128, .f32⟩
  | 12 => ⟨S128x128, .f32⟩
  | 13 => ⟨S128x128, .f32⟩
  | 14 => ⟨S128, .f32⟩
  | 15 => ⟨S128, .f32⟩
  | 16 => ⟨S128, .f32⟩
  | 17 => ⟨S128, .f32⟩
  | 18 => ⟨S_, .i32⟩
  | 19 => ⟨S500000, .i32⟩
  | 20 => ⟨S500000, .i1⟩
  | 21 => ⟨S_, .i32⟩
  | 22 => ⟨S500000, .i32⟩
  | 23 => ⟨S500000, .i32⟩
  | 24 => ⟨S500000, .i32⟩
  | 25 => ⟨S500000x1, .i32⟩
  | 26 => ⟨S500000x128, .f32⟩
  | 27 => ⟨S_, .f32⟩
  | 28 => ⟨S20000x128, .f32⟩
  | 29 => ⟨S500000x1, .i32⟩
  | 30 => ⟨S20000x128, .f32⟩
  | 31 => ⟨S_, .f32⟩
  | 32 => ⟨S500000x1, .f32⟩
  | 33 => ⟨S_, .f32⟩
  | 34 => ⟨S20000x1, .f32⟩
  | 35 => ⟨S500000x1, .i32⟩
  | 36 => ⟨S20000x1, .f32⟩
  | 37 => ⟨S_, .f32⟩
  | 38 => ⟨S20000x1, .f32⟩
  | 39 => ⟨S20000x1, .f32⟩
  | 40 => ⟨S20000x128, .f32⟩
  | 41 => ⟨S20000x128, .f32⟩
  | 42 => ⟨S20000x128, .f32⟩
  | 43 => ⟨S20000x128, .f32⟩
  | 44 => ⟨S20000x128, .f32⟩
  | 45 => ⟨S1x128, .f32⟩
  | 46 => ⟨S20000x128, .f32⟩
  | 47 => ⟨S20000x128, .f32⟩
  | 48 => ⟨S_, .f32⟩
  | 49 => ⟨S20000x128, .f32⟩
  | 50 => ⟨S20000x128, .f32⟩
  | 51 => ⟨S_, .i32⟩
  | 52 => ⟨S500000, .i32⟩
  | 53 => ⟨S500000, .i1⟩
  | 54 => ⟨S_, .i32⟩
  | 55 => ⟨S500000, .i32⟩
  | 56 => ⟨S500000, .i32⟩
  | 57 => ⟨S500000, .i32⟩
  | 58 => ⟨S500000x1, .i32⟩
  | 59 => ⟨S500000x128, .f32⟩
  | 60 => ⟨S_, .f32⟩
  | 61 => ⟨S100000x128, .f32⟩
  | 62 => ⟨S500000x1, .i32⟩
  | 63 => ⟨S100000x128, .f32⟩
  | 64 => ⟨S_, .f32⟩
  | 65 => ⟨S500000x1, .f32⟩
  | 66 => ⟨S_, .f32⟩
  | 67 => ⟨S100000x1, .f32⟩
  | 68 => ⟨S500000x1, .i32⟩
  | 69 => ⟨S100000x1, .f32⟩
  | 70 => ⟨S_, .f32⟩
  | 71 => ⟨S100000x1, .f32⟩
  | 72 => ⟨S100000x1, .f32⟩
  | 73 => ⟨S100000x128, .f32⟩
  | 74 => ⟨S100000x128, .f32⟩
  | 75 => ⟨S100000x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S_, .i32⟩
  | 85 => ⟨S500000, .i32⟩
  | 86 => ⟨S500000, .i1⟩
  | 87 => ⟨S_, .i32⟩
  | 88 => ⟨S500000, .i32⟩
  | 89 => ⟨S500000, .i32⟩
  | 90 => ⟨S500000, .i32⟩
  | 91 => ⟨S500000x1, .i32⟩
  | 92 => ⟨S500000x128, .f32⟩
  | 93 => ⟨S_, .f32⟩
  | 94 => ⟨S20000x128, .f32⟩
  | 95 => ⟨S500000x1, .i32⟩
  | 96 => ⟨S20000x128, .f32⟩
  | 97 => ⟨S_, .f32⟩
  | 98 => ⟨S500000x1, .f32⟩
  | 99 => ⟨S_, .f32⟩
  | 100 => ⟨S20000x1, .f32⟩
  | 101 => ⟨S500000x1, .i32⟩
  | 102 => ⟨S20000x1, .f32⟩
  | 103 => ⟨S_, .f32⟩
  | 104 => ⟨S20000x1, .f32⟩
  | 105 => ⟨S20000x1, .f32⟩
  | 106 => ⟨S20000x128, .f32⟩
  | 107 => ⟨S20000x128, .f32⟩
  | 108 => ⟨S20000x128, .f32⟩
  | 109 => ⟨S20000x128, .f32⟩
  | 110 => ⟨S20000x128, .f32⟩
  | 111 => ⟨S1x128, .f32⟩
  | 112 => ⟨S20000x128, .f32⟩
  | 113 => ⟨S20000x128, .f32⟩
  | 114 => ⟨S_, .i32⟩
  | 115 => ⟨S500000, .i32⟩
  | 116 => ⟨S500000, .i1⟩
  | 117 => ⟨S_, .i32⟩
  | 118 => ⟨S500000, .i32⟩
  | 119 => ⟨S500000, .i32⟩
  | 120 => ⟨S500000, .i32⟩
  | 121 => ⟨S500000x1, .i32⟩
  | 122 => ⟨S500000x128, .f32⟩
  | 123 => ⟨S_, .f32⟩
  | 124 => ⟨S100000x128, .f32⟩
  | 125 => ⟨S500000x1, .i32⟩
  | 126 => ⟨S100000x128, .f32⟩
  | 127 => ⟨S_, .f32⟩
  | _ => ⟨S100000x128, .f32⟩

abbrev hbmTy0_1 (i : Nat) : BufTy := match i % 128 with
  | 0 => ⟨S500000x1, .f32⟩
  | 1 => ⟨S_, .f32⟩
  | 2 => ⟨S100000x1, .f32⟩
  | 3 => ⟨S500000x1, .i32⟩
  | 4 => ⟨S100000x1, .f32⟩
  | 5 => ⟨S_, .f32⟩
  | 6 => ⟨S100000x1, .f32⟩
  | 7 => ⟨S100000x1, .f32⟩
  | 8 => ⟨S100000x128, .f32⟩
  | 9 => ⟨S100000x128, .f32⟩
  | 10 => ⟨S100000x128, .f32⟩
  | 11 => ⟨S100000x128, .f32⟩
  | 12 => ⟨S100000x128, .f32⟩
  | 13 => ⟨S1x128, .f32⟩
  | 14 => ⟨S100000x128, .f32⟩
  | 15 => ⟨S100000x128, .f32⟩
  | 16 => ⟨S_, .i32⟩
  | 17 => ⟨S500000, .i32⟩
  | 18 => ⟨S500000, .i1⟩
  | 19 => ⟨S_, .i32⟩
  | 20 => ⟨S500000, .i32⟩
  | 21 => ⟨S500000, .i32⟩
  | 22 => ⟨S500000, .i32⟩
  | 23 => ⟨S500000x1, .i32⟩
  | 24 => ⟨S500000x128, .f32⟩
  | 25 => ⟨S_, .i32⟩
  | 26 => ⟨S500000, .i32⟩
  | 27 => ⟨S500000, .i1⟩
  | 28 => ⟨S_, .i32⟩
  | 29 => ⟨S500000, .i32⟩
  | 30 => ⟨S500000, .i32⟩
  | 31 => ⟨S500000, .i32⟩
  | 32 => ⟨S500000x1, .i32⟩
  | 33 => ⟨S500000x128, .f32⟩
  | 34 => ⟨S500000x128, .f32⟩
  | 35 => ⟨S_, .f32⟩
  | 36 => ⟨S500000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_3 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_call0_cst : Ref sig .tc := ⟨.hbm, 48, rfl⟩
abbrev main_call0_v0 : Ref sig .tc := ⟨.hbm, 49, rfl⟩
abbrev main_v24 : Ref sig .tc := ⟨.hbm, 50, rfl⟩
abbrev main_c_4 : Ref sig .tc := ⟨.hbm, 51, rfl⟩
abbrev main_v25 : Ref sig .tc := ⟨.hbm, 52, rfl⟩
abbrev main_v26 : Ref sig .tc := ⟨.hbm, 53, rfl⟩
abbrev main_c_5 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_6 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_7 : Ref sig .tc := ⟨.hbm, 64, rfl⟩
abbrev main_v35 : Ref sig .tc := ⟨.hbm, 65, rfl⟩
abbrev main_cst_8 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_9 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_call1_cst : Ref sig .tc := ⟨.hbm, 81, rfl⟩
abbrev main_call1_v0 : Ref sig .tc := ⟨.hbm, 82, rfl⟩
abbrev main_v49 : Ref sig .tc := ⟨.hbm, 83, rfl⟩
abbrev main_c_10 : Ref sig .tc := ⟨.hbm, 84, rfl⟩
abbrev main_v50 : Ref sig .tc := ⟨.hbm, 85, rfl⟩
abbrev main_v51 : Ref sig .tc := ⟨.hbm, 86, rfl⟩
abbrev main_c_11 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_12 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_13 : Ref sig .tc := ⟨.hbm, 97, rfl⟩
abbrev main_v60 : Ref sig .tc := ⟨.hbm, 98, rfl⟩
abbrev main_cst_14 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_15 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_c_16 : Ref sig .tc := ⟨.hbm, 114, rfl⟩
abbrev main_v74 : Ref sig .tc := ⟨.hbm, 115, rfl⟩
abbrev main_v75 : Ref sig .tc := ⟨.hbm, 116, rfl⟩
abbrev main_c_17 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_18 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_19 : Ref sig .tc := ⟨.hbm, 127, rfl⟩
abbrev main_v84 : Ref sig .tc := ⟨.hbm, 128, rfl⟩
abbrev main_cst_20 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_cst_21 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_c_22 : Ref sig .tc := ⟨.hbm, 144, rfl⟩
abbrev main_v98 : Ref sig .tc := ⟨.hbm, 145, rfl⟩
abbrev main_v99 : Ref sig .tc := ⟨.hbm, 146, rfl⟩
abbrev main_c_23 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_c_24 : Ref sig .tc := ⟨.hbm, 153, rfl⟩
abbrev main_v105 : Ref sig .tc := ⟨.hbm, 154, rfl⟩
abbrev main_v106 : Ref sig .tc := ⟨.hbm, 155, rfl⟩
abbrev main_c_25 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_cst_26 : Ref sig .tc := ⟨.hbm, 163, rfl⟩
abbrev main_v113 : Ref sig .tc := ⟨.hbm, 164, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S20000x128 : S_.BroadcastsInDim S20000x128 (![] : Fin 0 → Fin S20000x128.rank)
  bcast_S_S500000x1 : S_.BroadcastsInDim S500000x1 (![] : Fin 0 → Fin S500000x1.rank)
  bcast_S_S20000x1 : S_.BroadcastsInDim S20000x1 (![] : Fin 0 → Fin S20000x1.rank)
  bcast_S20000x1_S20000x128_0_1 : S20000x1.BroadcastsInDim S20000x128 (![0, 1] : Fin 2 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S100000x128 : S_.BroadcastsInDim S100000x128 (![] : Fin 0 → Fin S100000x128.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  reducesTo_S500000x128_S500000_d1 : S500000x128.ReducesTo [1] S500000
  h_S_ : 0 < S_.numel
  gather_S100000x128_S500000x1_S500000x128_1_0_n_n_0_1_1128_wf : GatherDims.WF S100000x128 S500000x1 S500000x128 [1] [0] [] [0] [] 1 ![1, 128]
  scatter_S20000x128_S500000x1_S500000x128_1_0_0_1_wf : ScatterDims.WF S20000x128 S500000x1 S500000x128 [1] [0] [0] 1
  scatter_S20000x1_S500000x1_S500000x1_1_0_0_1_wf : ScatterDims.WF S20000x1 S500000x1 S500000x1 [1] [0] [0] 1
  dot_S20000x128_S128x128_S20000x128_1_0_0_1_n_n_wf : DotDims.WF S20000x128 S128x128 S20000x128 [1] [0] [0] [1] [] []
  gather_S20000x128_S500000x1_S500000x128_1_0_n_n_0_1_1128_wf : GatherDims.WF S20000x128 S500000x1 S500000x128 [1] [0] [] [0] [] 1 ![1, 128]
  scatter_S100000x128_S500000x1_S500000x128_1_0_0_1_wf : ScatterDims.WF S100000x128 S500000x1 S500000x128 [1] [0] [0] 1
  scatter_S100000x1_S500000x1_S500000x1_1_0_0_1_wf : ScatterDims.WF S100000x1 S500000x1 S500000x1 [1] [0] [0] 1
  dot_S100000x128_S128x128_S100000x128_1_0_0_1_n_n_wf : DotDims.WF S100000x128 S128x128 S100000x128 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S20000x128_S500000x1_S500000x128_1_0_0_1 : ScatterDims S20000x128 S500000x1 S500000x128 where
  updateWindowDims := [1]
  insertedWindowDims := [0]
  scatterDimsToOperandDims := [0]
  indexVectorDim := 1
  wf := scatter_S20000x128_S500000x1_S500000x128_1_0_0_1_wf
def scatter_S20000x1_S500000x1_S500000x1_1_0_0_1 : ScatterDims S20000x1 S500000x1 S500000x1 where
  updateWindowDims := [1]
  insertedWindowDims := [0]
  scatterDimsToOperandDims := [0]
  indexVectorDim := 1
  wf := scatter_S20000x1_S500000x1_S500000x1_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S500000x1_S500000x128_1_0_n_n_0_1_1128 : GatherDims S20000x128 S500000x1 S500000x128 where
  offsetDims := [1]
  collapsedSliceDims := [0]
  operandBatchingDims := []
  startIndicesBatchingDims := []
  startIndexMap := [0]
  indexVectorDim := 1
  sliceSizes := ![1, 128]
  wf := gather_S20000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000x1_S500000x1_S500000x1_1_0_0_1 : ScatterDims S100000x1 S500000x1 S500000x1 where
  updateWindowDims := [1]
  insertedWindowDims := [0]
  scatterDimsToOperandDims := [0]
  indexVectorDim := 1
  wf := scatter_S100000x1_S500000x1_S500000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The idealized kernel program's run, with its result kept.

  The program is four row-tiled dense stages among five stretches of host operations.  Every weakly fair execution
  from a memory with zero counters terminates without a fault; at the end each buffer the program does not scope holds
  what the fold of the nine segments leaves in it: the launch memory pushed through the first stretch's operations,
  the first stage's arrays replaced by what its write-backs leave, the second stretch's operations, and so on to the
  last stretch.  Stated here for the result buffer beside the eighteen argument buffers (which end as launched).
-/
import proofs.«135056_j88682484727898_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last boundary's contents and the arguments as
    launched. -/
theorem run_result : θ_run defs (onTc (τ := τ) (main (F := F))) ⟨m, fun _ => 0, ρ⟩ (fun r => ∀ c : Dev nD,
      r.2.mem ((c.tc : Thread nD τ).loc main_v125) = W9 m ρ c (Proc.devRef .tc main_v125)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v125 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c)⟩)

end Cert.KernelIdeal.Run

end
-- ==== Proof.LibSageSpec.lean ====
/-
  One dense stage of a mean-aggregating graph layer, as a function of whole arrays.

  Given, for A nodes, the summed neighbour features `agg` [A, K], the neighbour counts `cnt` [A, 1], the nodes' own
  features `x` [A, K], two weight matrices `wn`, `wr` [K, B] and a bias `b` [B], the stage's entry (p, q) is

      (Σ_k (agg(p,k) / max(cnt(p,0), 1)) · wn(k,q)  +  Σ_k x(p,k) · wr(k,q))  +  b(q)

  on the extended reals: the mean of the neighbours through one linear map, the node itself through another, and the
  bias, added in that order.  `sageLin` is that array; `sageRelu` is its entrywise maximum with zero.  Generic in the
  three extents; the constants one and zero are kept as the binary words both programs print.
-/
import Idealize.ShloMosaic.PureOps.Ideal
import Idealize.ShloMosaic.Lib.ValueIdx

noncomputable section

namespace Cert.Lib

open Idealize.ShloMosaic Idealize.ShloMosaic.ValueIdx

variable {A K B : ℕ}

/-- The stage's entry (p, q). -/
def sageAt (agg : (⟨2, ![A, K]⟩ : Shape).Idx → EReal) (cnt : (⟨2, ![A, 1]⟩ : Shape).Idx → EReal)
    (x : (⟨2, ![A, K]⟩ : Shape).Idx → EReal) (wn wr : (⟨2, ![K, B]⟩ : Shape).Idx → EReal)
    (b : (⟨1, ![B]⟩ : Shape).Idx → EReal) (p : Fin A) (q : Fin B) : EReal :=
  ((∑ k : Fin K, Ideal.div (agg (ix2 p k)) (max (cnt (ix2 p (0 : Fin 1))) (Ideal.ofBits .f32 0x3F800000#32)) * wn (ix2 k q))
      + ∑ k : Fin K, x (ix2 p k) * wr (ix2 k q))
    + b (ix1 q)

/-- The stage as a whole array. -/
def sageLin (agg : (⟨2, ![A, K]⟩ : Shape).Idx → EReal) (cnt : (⟨2, ![A, 1]⟩ : Shape).Idx → EReal)
    (x : (⟨2, ![A, K]⟩ : Shape).Idx → EReal) (wn wr : (⟨2, ![K, B]⟩ : Shape).Idx → EReal)
    (b : (⟨1, ![B]⟩ : Shape).Idx → EReal) : (⟨2, ![A, B]⟩ : Shape).Idx → EReal :=
  fun i => sageAt agg cnt x wn wr b (i 0) (i 1)

/-- The stage followed by the entrywise maximum with zero. -/
def sageRelu (agg : (⟨2, ![A, K]⟩ : Shape).Idx → EReal) (cnt : (⟨2, ![A, 1]⟩ : Shape).Idx → EReal)
    (x : (⟨2, ![A, K]⟩ : Shape).Idx → EReal) (wn wr : (⟨2, ![K, B]⟩ : Shape).Idx → EReal)
    (b : (⟨1, ![B]⟩ : Shape).Idx → EReal) : (⟨2, ![A, B]⟩ : Shape).Idx → EReal :=
  fun i => max (sageAt agg cnt x wn wr b (i 0) (i 1)) (Ideal.ofBits .f32 0x00000000#32)

theorem sageLin_apply (agg : (⟨2, ![A, K]⟩ : Shape).Idx → EReal) (cnt : (⟨2, ![A, 1]⟩ : Shape).Idx → EReal)
    (x : (⟨2, ![A, K]⟩ : Shape).Idx → EReal) (wn wr : (⟨2, ![K, B]⟩ : Shape).Idx → EReal)
    (b : (⟨1, ![B]⟩ : Shape).Idx → EReal) (p : Fin A) (q : Fin B) :
    sageLin agg cnt x wn wr b (ix2 p q) = sageAt agg cnt x wn wr b p q := rfl

theorem sageRelu_apply (agg : (⟨2, ![A, K]⟩ : Shape).Idx → EReal) (cnt : (⟨2, ![A, 1]⟩ : Shape).Idx → EReal)
    (x : (⟨2, ![A, K]⟩ : Shape).Idx → EReal) (wn wr : (⟨2, ![K, B]⟩ : Shape).Idx → EReal)
    (b : (⟨1, ![B]⟩ : Shape).Idx → EReal) (p : Fin A) (q : Fin B) :
    sageRelu agg cnt x wn wr b (ix2 p q) = max (sageAt agg cnt x wn wr b p q) (Ideal.ofBits .f32 0x00000000#32) := rfl

end Cert.Lib

end
-- ==== Proof.IndexDomain.lean ====
/-
  The integer-index half of the precondition.  Its last two conjuncts say that every entry of the two edge-endpoint
  vectors (500000 signed 32-bit words each) is at least 0: a signed comparison of the vector against the constant 0
  broadcast to its shape, reduced by `and` over the whole vector, and-ed onto the chain of the other conjuncts.  Read
  back at one entry this says "the entry is not below 0, read signed" (`NonNeg`).  Under that fact the wrap-around
  `select (v < 0) (v + n) v` that each program places in front of a row gather is `v` itself (`wrap_eq`).
-/
import proofs.«135056_j88682484727898_2_alg».proof.Pre_finite_inputs
import Idealize.ShloMosaic.Lib.ReduceAll
import Idealize.ShloMosaic.Lib.ValueIdx
import Idealize.ShloMosaic.PureOps.Ideal

namespace Cert.IndexDomain

open Idealize.ShloMosaic Idealize.ShloMosaic.ValueIdx

/-- every entry of `v` is non-negative as a signed word -/
def NonNeg (v : IVec (⟨1, ![500000]⟩ : Shape) 32) : Prop := ∀ e, (v e).slt 0#32 = false

/-- A rank-0 constant broadcast along no axis, read at any entry, is the constant. -/
theorem bcast_const_apply (c : BitVec 32)
    (hb : (⟨0, ![]⟩ : Shape).BroadcastsInDim (⟨1, ![500000]⟩ : Shape) (![] : Fin 0 → Fin (⟨1, ![500000]⟩ : Shape).rank))
    (e : (⟨1, ![500000]⟩ : Shape).Idx) :
    broadcastInDim (⟨1, ![500000]⟩ : Shape) ![] hb (constantI (⟨0, ![]⟩ : Shape) 32 c) e = c := rfl

/-- A word that is at least 0, read signed, is not below 0, read signed. -/
theorem slt_zero_of_sge (w : BitVec 32) (h : IntOp.cmpi .sge w 0#32 = 1#1) : w.slt 0#32 = false := by
  have h' : BitVec.ofBool ((0#32).sle w) = 1#1 := h
  rw [BitVec.sle_eq_not_slt] at h'
  cases hs : w.slt 0#32 with
  | false => rfl
  | true => rw [hs] at h'; exact absurd h' (by decide)

/-- The last part of the precondition's chain: whatever the chain carries in, if the result is all ones then both
    endpoint vectors are entrywise non-negative. -/
theorem nonneg_of_part4 [Cert.Pre_finite_inputs.Facts] (a2 a3 : IVec (⟨1, ![500000]⟩ : Shape) 32) (x y : IVec (⟨0, ![]⟩ : Shape) 1)
    (h : Cert.Pre_finite_inputs.fn_part4 (F := Ideal) a2 a3 x y = (fun _ => 1#1)) : NonNeg a2 ∧ NonNeg a3 := by
  haveI : Subsingleton (⟨0, ![]⟩ : Shape).Idx := ⟨fun a b => funext fun d => d.elim0⟩
  have h0 := congrFun h ix0
  dsimp only [Cert.Pre_finite_inputs.fn_part4] at h0
  obtain ⟨h12, h3⟩ := IntOp.andi_eq_one.1 h0
  obtain ⟨-, h2⟩ := IntOp.andi_eq_one.1 h12
  refine ⟨fun e => ?_, fun e => ?_⟩
  · have hc := Host.reduce_andi_all _ _ _ _ ix0 h2 e
    have hc' : IntOp.cmpi .sge (a2 e) 0#32 = 1#1 := hc
    exact slt_zero_of_sge _ hc'
  · have hc := Host.reduce_andi_all _ _ _ _ ix0 h3 e
    have hc' : IntOp.cmpi .sge (a3 e) 0#32 = 1#1 := hc
    exact slt_zero_of_sge _ hc'

/-- THE PRECONDITION DECODED for the two endpoint vectors: if the printed predicate is all ones on the eighteen argument
    arrays, every entry of the third and of the fourth is non-negative, read signed.  The chain's parts each end in the call
    of the next, so the whole predicate is its last part at the two vectors and two carried bits; the float conjuncts
    stay closed inside those bits. -/
theorem nonneg_of_pre [Cert.Pre_finite_inputs.Facts]
    (a0 : FVec Ideal Cert.Pre_finite_inputs.S100000x128 .f32) (a1 : FVec Ideal Cert.Pre_finite_inputs.S20000x128 .f32) (a2 : IVec (⟨1, ![500000]⟩ : Shape) 32) (a3 : IVec (⟨1, ![500000]⟩ : Shape) 32) (a4 : IVec (⟨1, ![500000]⟩ : Shape) 32) (a5 : IVec (⟨1, ![500000]⟩ : Shape) 32)
    (a6 : FVec Ideal Cert.Pre_finite_inputs.S128x128 .f32) (a7 : FVec Ideal Cert.Pre_finite_inputs.S128x128 .f32) (a8 : FVec Ideal Cert.Pre_finite_inputs.S128x128 .f32) (a9 : FVec Ideal Cert.Pre_finite_inputs.S128x128 .f32) (a10 : FVec Ideal Cert.Pre_finite_inputs.S128x128 .f32) (a11 : FVec Ideal Cert.Pre_finite_inputs.S128x128 .f32) (a12 : FVec Ideal Cert.Pre_finite_inputs.S128x128 .f32) (a13 : FVec Ideal Cert.Pre_finite_inputs.S128x128 .f32)
    (a14 : FVec Ideal Cert.Pre_finite_inputs.S128 .f32) (a15 : FVec Ideal Cert.Pre_finite_inputs.S128 .f32) (a16 : FVec Ideal Cert.Pre_finite_inputs.S128 .f32) (a17 : FVec Ideal Cert.Pre_finite_inputs.S128 .f32)
    (h : Cert.Pre_finite_inputs.fn (F := Ideal) a0 a1 a2 a3 a4 a5 a6 a7 a8 a9 a10 a11 a12 a13 a14 a15 a16 a17 = (fun _ => 1#1)) : NonNeg a2 ∧ NonNeg a3 :=
  nonneg_of_part4 a2 a3 _ _ h

/-- The wrap-around in front of a row gather, `select (v < 0) (v + n) v` with both constants broadcast from rank 0, is
    `v` when every entry of `v` is non-negative: at each entry the comparison's bit is 0 and the select keeps `v`. -/
theorem wrap_eq (n : BitVec 32) (v : IVec (⟨1, ![500000]⟩ : Shape) 32)
    (hb : (⟨0, ![]⟩ : Shape).BroadcastsInDim (⟨1, ![500000]⟩ : Shape) (![] : Fin 0 → Fin (⟨1, ![500000]⟩ : Shape).rank)) (h : NonNeg v) :
    select (cmpi .slt v (broadcastInDim (⟨1, ![500000]⟩ : Shape) ![] hb (constantI (⟨0, ![]⟩ : Shape) 32 0#32)))
      (addi v (broadcastInDim (⟨1, ![500000]⟩ : Shape) ![] hb (constantI (⟨0, ![]⟩ : Shape) 32 n))) v = v := by
  funext e
  rw [select_apply]
  have hc : cmpi .slt v (broadcastInDim (⟨1, ![500000]⟩ : Shape) ![] hb (constantI (⟨0, ![]⟩ : Shape) 32 0#32)) e = 0#1 := by
    show BitVec.ofBool ((v e).slt 0#32) = 0#1
    rw [h e]
    rfl
  rw [hc]
  exact select_zero _ _

end Cert.IndexDomain
-- ==== Proof.KFns.lean ====
/-
  The host-side functions of the two-layer mean-aggregating graph network, as the kernel program spells them.

  Edges run between 100000 "user" nodes and 20000 "movie" nodes; an edge list is two vectors of 500000 indices.
  * `wrap n v` is the index vector with n added to every negative entry (how a negative index is read);
    under "every entry is non-negative" it is v itself.
  * `col v` is the index vector as one column [500000, 1].
  * `aggM x src dst`: rows of the user array x gathered at src, summed into 20000 rows at dst;
    `cntM dst`: the number of edges summed into each of those rows, as a [20000, 1] column.
    `aggU`, `cntU`: the same from the movie array into 100000 rows.
  * `decode hu hm lu lm`: for each of 500000 labelled pairs, the inner product of row lu of hu with row lm of hm.
  The network: two first-layer stages with a rectifier (`hM`, `hU`), two second-layer stages without (`hM2`, `hU2`), then
  `decode`; each stage is `Cert.Lib.sageRelu` / `Cert.Lib.sageLin` of an aggregation, a count, the destination nodes' own
  features, two weight matrices and a bias.
-/
import proofs.«135056_j88682484727898_2_alg».proof.KernelIdeal
import proofs.«135056_j88682484727898_2_alg».proof.Proof.LibSageSpec
import proofs.«135056_j88682484727898_2_alg».proof.Proof.IndexDomain

noncomputable section

namespace Cert.KernelIdeal.Fns

open Cert.KernelIdeal Idealize.ShloMosaic

variable [Cert.KernelIdeal.Facts]
open Cert.KernelIdeal.Facts Cert.KernelIdeal.Facts₀

/-- n added to every negative entry. -/
def wrap (n : BitVec 32) (v : IVec S500000 32) : IVec S500000 32 :=
  select (cmpi .slt v (broadcastInDim S500000 ![] bcast_S_S500000 (constantI S_ 32 0#32)))
    (addi v (broadcastInDim S500000 ![] bcast_S_S500000 (constantI S_ 32 n))) v

/-- Under non-negativity the wrapped vector is the vector. -/
theorem wrap_nonneg (n : BitVec 32) (v : IVec S500000 32) (h : Cert.IndexDomain.NonNeg v) : wrap n v = v :=
  Cert.IndexDomain.wrap_eq n v bcast_S_S500000 h

/-- The vector as one column. -/
def col (v : IVec S500000 32) : IVec S500000x1 32 := broadcastInDim S500000x1 ![0] bcast_S500000_S500000x1_0 v

def aggM (x : S100000x128.Idx → EReal) (src dst : IVec S500000 32) : FVec Ideal S20000x128 .f32 :=
  Host.scatterAdd (F := Ideal) (φ := .f32) scatter_S20000x128_S500000x1_S500000x128_1_0_0_1
    (broadcastInDim S20000x128 ![] bcast_S_S20000x128 (constant (F := Ideal) S_ .f32 0x00000000#32)) (col dst)
    (Host.gather gather_S100000x128_S500000x1_S500000x128_1_0_n_n_0_1_1128 x (col src))

def cntM (dst : IVec S500000 32) : FVec Ideal S20000x1 .f32 :=
  Host.scatterAdd (F := Ideal) (φ := .f32) scatter_S20000x1_S500000x1_S500000x1_1_0_0_1
    (broadcastInDim S20000x1 ![] bcast_S_S20000x1 (constant (F := Ideal) S_ .f32 0x00000000#32)) (col dst)
    (broadcastInDim S500000x1 ![] bcast_S_S500000x1 (constant (F := Ideal) S_ .f32 0x3F800000#32))

def aggU (x : S20000x128.Idx → EReal) (src dst : IVec S500000 32) : FVec Ideal S100000x128 .f32 :=
  Host.scatterAdd (F := Ideal) (φ := .f32) scatter_S100000x128_S500000x1_S500000x128_1_0_0_1
    (broadcastInDim S100000x128 ![] bcast_S_S100000x128 (constant (F := Ideal) S_ .f32 0x00000000#32)) (col dst)
    (Host.gather gather_S20000x128_S500000x1_S500000x128_1_0_n_n_0_1_1128 x (col src))

def cntU (dst : IVec S500000 32) : FVec Ideal S100000x1 .f32 :=
  Host.scatterAdd (F := Ideal) (φ := .f32) scatter_S100000x1_S500000x1_S500000x1_1_0_0_1
    (broadcastInDim S100000x1 ![] bcast_S_S100000x1 (constant (F := Ideal) S_ .f32 0x00000000#32)) (col dst)
    (broadcastInDim S500000x1 ![] bcast_S_S500000x1 (constant (F := Ideal) S_ .f32 0x3F800000#32))

def decode (hu : S100000x128.Idx → EReal) (hm : S20000x128.Idx → EReal) (lu lm : IVec S500000 32) : FVec Ideal S500000 .f32 :=
  Host.reduceAdd (F := Ideal) (φ := .f32)
    (mulf (F := Ideal) (φ := .f32) (Host.gather gather_S100000x128_S500000x1_S500000x128_1_0_n_n_0_1_1128 hu (col lu))
      (Host.gather gather_S20000x128_S500000x1_S500000x128_1_0_n_n_0_1_1128 hm (col lm)))
    (constant (F := Ideal) S_ .f32 0x00000000#32) reducesTo_S500000x128_S500000_d1 h_S_

/-! ## The network -/

variable (a0 : S100000x128.Idx → EReal) (a1 : S20000x128.Idx → EReal) (a2 a3 a4 a5 : IVec S500000 32)
  (a6 a7 a8 a9 a10 a11 a12 a13 : S128x128.Idx → EReal) (a14 a15 a16 a17 : S128.Idx → EReal)

/-- First layer, movies. -/
def hM : S20000x128.Idx → EReal := Cert.Lib.sageRelu (aggM a0 a2 a3) (cntM a3) a1 a6 a7 a14
/-- First layer, users. -/
def hU : S100000x128.Idx → EReal := Cert.Lib.sageRelu (aggU a1 a3 a2) (cntU a2) a0 a8 a9 a15
/-- Second layer, movies. -/
def hM2 : S20000x128.Idx → EReal :=
  Cert.Lib.sageLin (aggM (hU a0 a1 a2 a3 a8 a9 a15) a2 a3) (cntM a3) (hM a0 a1 a2 a3 a6 a7 a14) a10 a11 a16
/-- Second layer, users. -/
def hU2 : S100000x128.Idx → EReal :=
  Cert.Lib.sageLin (aggU (hM a0 a1 a2 a3 a6 a7 a14) a3 a2) (cntU a2) (hU a0 a1 a2 a3 a8 a9 a15) a12 a13 a17
/-- The whole network. -/
def net : FVec Ideal S500000 .f32 :=
  decode (hU2 a0 a1 a2 a3 a6 a7 a8 a9 a12 a13 a14 a15 a17) (hM2 a0 a1 a2 a3 a6 a7 a8 a9 a10 a11 a14 a15 a16)
    (wrap 100000#32 a4) (wrap 20000#32 a5)

end Cert.KernelIdeal.Fns

end
-- ==== Proof.KStretch.lean ====
/-
  The five stretches of host operations of the kernel program, read one buffer at a time.

  From ANY contents W of the buffers, the contents after a stretch's operations are, at the buffers a dense stage
  will read: the aggregation and the count of the stretch's edge direction (rows gathered at one endpoint — a negative
  index read with the table's length added — and summed at the other), and the stage's two weight matrices (the change
  of float format is the identity on the extended reals); at the result buffer after the last stretch, the decoder.
  Every buffer a stretch's operations do not write keeps its contents.
-/
import proofs.«135056_j88682484727898_2_alg».proof.Proof.Gen.KernelIdeal.Launch
import proofs.«135056_j88682484727898_2_alg».proof.Proof.KFns
import Idealize.ShloMosaic.Lib.StableHlo.Run

set_option maxRecDepth 16384

noncomputable section

namespace Cert.KernelIdeal.Stretch

open Cert.KernelIdeal Cert.KernelIdeal.Gen Cert.KernelIdeal.Fns
open Idealize.ShloMosaic Idealize.ShloMosaic.TcCoe Idealize.ShloMosaic.StableHlo

/-! ## What each stretch writes -/

/-- The buffers stretch 0's operations write: each operation's own result. -/
abbrev written0 : List (Ref sig .tc) := [main_c, main_v0, main_v1, main_c_0, main_v2, main_v3, main_v4, main_v5, main_v6, main_cst, main_v7, main_c_1, main_v8, main_v9, main_c_2, main_v10, main_v11, main_v12, main_v13, main_v14, main_cst_3, main_v15, main_cst_4, main_v16, main_c_5, main_v17, main_v18, main_c_6, main_v19, main_v20, main_v21, main_v22, main_v23, main_v24, main_v25]
theorem writes0 : (hostOps0 : List (HloOp τ sig (Elt Ideal))).Forall fun op => op.writes ⊆ ((written0).map (Proc.devRef (τ := τ) .tc)).toFinset := by
  simp only [hostOps0, List.Forall, StableHlo.nullary_writes, StableHlo.unary_writes, StableHlo.binary_writes, StableHlo.ternary_writes,
    Finset.singleton_subset_iff, List.mem_toFinset]
  repeat' apply And.intro
  all_goals exact List.mem_map_of_mem (by decide)

/-- The buffers stretch 1's operations write: each operation's own result. -/
abbrev written1 : List (Ref sig .tc) := [main_c_7, main_v27, main_v28, main_c_8, main_v29, main_v30, main_v31, main_v32, main_v33, main_cst_9, main_v34, main_c_10, main_v35, main_v36, main_c_11, main_v37, main_v38, main_v39, main_v40, main_v41, main_cst_12, main_v42, main_cst_13, main_v43, main_c_14, main_v44, main_v45, main_c_15, main_v46, main_v47, main_v48, main_v49, main_v50, main_v51, main_v52]
theorem writes1 : (hostOps1 : List (HloOp τ sig (Elt Ideal))).Forall fun op => op.writes ⊆ ((written1).map (Proc.devRef (τ := τ) .tc)).toFinset := by
  simp only [hostOps1, List.Forall, StableHlo.nullary_writes, StableHlo.unary_writes, StableHlo.binary_writes, StableHlo.ternary_writes,
    Finset.singleton_subset_iff, List.mem_toFinset]
  repeat' apply And.intro
  all_goals exact List.mem_map_of_mem (by decide)

/-- The buffers stretch 2's operations write: each operation's own result. -/
abbrev written2 : List (Ref sig .tc) := [main_c_16, main_v54, main_v55, main_c_17, main_v56, main_v57, main_v58, main_v59, main_v60, main_v61, main_cst_18, main_v62, main_c_19, main_v63, main_v64, main_c_20, main_v65, main_v66, main_v67, main_v68, main_v69, main_cst_21, main_v70, main_cst_22, main_v71, main_c_23, main_v72, main_v73, main_c_24, main_v74, main_v75, main_v76, main_v77, main_v78, main_v79, main_v80]
theorem writes2 : (hostOps2 : List (HloOp τ sig (Elt Ideal))).Forall fun op => op.writes ⊆ ((written2).map (Proc.devRef (τ := τ) .tc)).toFinset := by
  simp only [hostOps2, List.Forall, StableHlo.nullary_writes, StableHlo.unary_writes, StableHlo.binary_writes, StableHlo.ternary_writes,
    Finset.singleton_subset_iff, List.mem_toFinset]
  repeat' apply And.intro
  all_goals exact List.mem_map_of_mem (by decide)

/-- The buffers stretch 3's operations write: each operation's own result. -/
abbrev written3 : List (Ref sig .tc) := [main_c_25, main_v82, main_v83, main_c_26, main_v84, main_v85, main_v86, main_v87, main_v88, main_v89, main_cst_27, main_v90, main_c_28, main_v91, main_v92, main_c_29, main_v93, main_v94, main_v95, main_v96, main_v97, main_cst_30, main_v98, main_cst_31, main_v99, main_c_32, main_v100, main_v101, main_c_33, main_v102, main_v103, main_v104, main_v105, main_v106, main_v107, main_v108]
theorem writes3 : (hostOps3 : List (HloOp τ sig (Elt Ideal))).Forall fun op => op.writes ⊆ ((written3).map (Proc.devRef (τ := τ) .tc)).toFinset := by
  simp only [hostOps3, List.Forall, StableHlo.nullary_writes, StableHlo.unary_writes, StableHlo.binary_writes, StableHlo.ternary_writes,
    Finset.singleton_subset_iff, List.mem_toFinset]
  repeat' apply And.intro
  all_goals exact List.mem_map_of_mem (by decide)

variable (W : Valuation τ sig (Elt Ideal))

/-! ## Stretch 0: the movie side of the first layer -/

theorem s0_agg : after (hostOps0 (F := Ideal)) W (Proc.devRef .tc main_v14)
    = aggM (W (Proc.devRef .tc main_arg0)) (wrap 100000#32 (W (Proc.devRef .tc main_arg2))) (wrap 20000#32 (W (Proc.devRef .tc main_arg3))) := by
  dsimp only [hostOps0]; after_results_simp <;> rfl
theorem s0_cnt : after (hostOps0 (F := Ideal)) W (Proc.devRef .tc main_v23) = cntM (wrap 20000#32 (W (Proc.devRef .tc main_arg3))) := by
  dsimp only [hostOps0]; after_results_simp <;> rfl
theorem s0_wn : after (hostOps0 (F := Ideal)) W (Proc.devRef .tc main_v24) = W (Proc.devRef .tc main_arg6) := by
  dsimp only [hostOps0]; after_results_simp <;> rfl
theorem s0_wr : after (hostOps0 (F := Ideal)) W (Proc.devRef .tc main_v25) = W (Proc.devRef .tc main_arg7) := by
  dsimp only [hostOps0]; after_results_simp <;> rfl
theorem s0_keeps (r : Ref sig .tc) (h : r ∉ (written0 : List (Ref sig .tc))) :
    after (hostOps0 (F := Ideal)) W (Proc.devRef .tc r) = W (Proc.devRef .tc r) :=
  after_of_writes_sub hostOps0 _ writes0 h

/-! ## Stretch 1: the user side of the first layer -/

theorem s1_agg : after (hostOps1 (F := Ideal)) W (Proc.devRef .tc main_v41)
    = aggU (W (Proc.devRef .tc main_arg1)) (wrap 20000#32 (W (Proc.devRef .tc main_arg3))) (wrap 100000#32 (W (Proc.devRef .tc main_arg2))) := by
  dsimp only [hostOps1]; after_results_simp <;> rfl
theorem s1_cnt : after (hostOps1 (F := Ideal)) W (Proc.devRef .tc main_v50) = cntU (wrap 100000#32 (W (Proc.devRef .tc main_arg2))) := by
  dsimp only [hostOps1]; after_results_simp <;> rfl
theorem s1_wn : after (hostOps1 (F := Ideal)) W (Proc.devRef .tc main_v51) = W (Proc.devRef .tc main_arg8) := by
  dsimp only [hostOps1]; after_results_simp <;> rfl
theorem s1_wr : after (hostOps1 (F := Ideal)) W (Proc.devRef .tc main_v52) = W (Proc.devRef .tc main_arg9) := by
  dsimp only [hostOps1]; after_results_simp <;> rfl
theorem s1_keeps (r : Ref sig .tc) (h : r ∉ (written1 : List (Ref sig .tc))) :
    after (hostOps1 (F := Ideal)) W (Proc.devRef .tc r) = W (Proc.devRef .tc r) :=
  after_of_writes_sub hostOps1 _ writes1 h

/-! ## Stretch 2: the movie side of the second layer -/

theorem s2_agg : after (hostOps2 (F := Ideal)) W (Proc.devRef .tc main_v69)
    = aggM (W (Proc.devRef .tc main_v53)) (wrap 100000#32 (W (Proc.devRef .tc main_arg2))) (wrap 20000#32 (W (Proc.devRef .tc main_arg3))) := by
  dsimp only [hostOps2]; after_results_simp <;> rfl
theorem s2_cnt : after (hostOps2 (F := Ideal)) W (Proc.devRef .tc main_v78) = cntM (wrap 20000#32 (W (Proc.devRef .tc main_arg3))) := by
  dsimp only [hostOps2]; after_results_simp <;> rfl
theorem s2_wn : after (hostOps2 (F := Ideal)) W (Proc.devRef .tc main_v79) = W (Proc.devRef .tc main_arg10) := by
  dsimp only [hostOps2]; after_results_simp <;> rfl
theorem s2_wr : after (hostOps2 (F := Ideal)) W (Proc.devRef .tc main_v80) = W (Proc.devRef .tc main_arg11) := by
  dsimp only [hostOps2]; after_results_simp <;> rfl
theorem s2_keeps (r : Ref sig .tc) (h : r ∉ (written2 : List (Ref sig .tc))) :
    after (hostOps2 (F := Ideal)) W (Proc.devRef .tc r) = W (Proc.devRef .tc r) :=
  after_of_writes_sub hostOps2 _ writes2 h

/-! ## Stretch 3: the user side of the second layer -/

theorem s3_agg : after (hostOps3 (F := Ideal)) W (Proc.devRef .tc main_v97)
    = aggU (W (Proc.devRef .tc main_v26)) (wrap 20000#32 (W (Proc.devRef .tc main_arg3))) (wrap 100000#32 (W (Proc.devRef .tc main_arg2))) := by
  dsimp only [hostOps3]; after_results_simp <;> rfl
theorem s3_cnt : after (hostOps3 (F := Ideal)) W (Proc.devRef .tc main_v106) = cntU (wrap 100000#32 (W (Proc.devRef .tc main_arg2))) := by
  dsimp only [hostOps3]; after_results_simp <;> rfl
theorem s3_wn : after (hostOps3 (F := Ideal)) W (Proc.devRef .tc main_v107) = W (Proc.devRef .tc main_arg12) := by
  dsimp only [hostOps3]; after_results_simp <;> rfl
theorem s3_wr : after (hostOps3 (F := Ideal)) W (Proc.devRef .tc main_v108) = W (Proc.devRef .tc main_arg13) := by
  dsimp only [hostOps3]; after_results_simp <;> rfl
theorem s3_keeps (r : Ref sig .tc) (h : r ∉ (written3 : List (Ref sig .tc))) :
    after (hostOps3 (F := Ideal)) W (Proc.devRef .tc r) = W (Proc.devRef .tc r) :=
  after_of_writes_sub hostOps3 _ writes3 h

/-! ## Stretch 4: the decoder -/

theorem s4_out : after (hostOps4 (F := Ideal)) W (Proc.devRef .tc main_v125)
    = decode (W (Proc.devRef .tc main_v109)) (W (Proc.devRef .tc main_v81))
        (wrap 100000#32 (W (Proc.devRef .tc main_arg4))) (wrap 20000#32 (W (Proc.devRef .tc main_arg5))) := by
  dsimp only [hostOps4]; after_results_simp <;> rfl

end Cert.KernelIdeal.Stretch

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibAffineLayer.lean ====
/-
  An affine layer read at an index.

  A bias vector of length B, cast to a [1, B] row and broadcast to [A, B], reads at (p, q) the bias at q. Added to
  the plain product of an [A, K] and a [K, B] matrix into the zero accumulator, it gives at the ideal values and at
  (p, q) the sum over k < K of left(p, k) · right(k, q), plus the bias at q: one row of the left operand through an
  affine map.
-/
import Idealize.ShloMosaic.Lib.ValueLayout
import proofs.«135056_j88682484727898_2_alg».proof.Proof.LibMatmul2

noncomputable section

namespace Cert.Lib

open Idealize.ShloMosaic Idealize.ShloMosaic.ValueIdx

variable {A K B : ℕ} {φ₁ φ₂ : FTy} {α : Type}

/-- A `[B]` vector cast to a `[1, B]` row and broadcast to `[A, B]` reads, at `(p, q)`, the vector at `q`. -/
theorem rowBroadcast_apply (v : (⟨1, ![B]⟩ : Shape).Idx → α) (hc : (⟨1, ![B]⟩ : Shape).ShapeCasts ⟨2, ![1, B]⟩)
    (hb : (⟨2, ![1, B]⟩ : Shape).Broadcasts ⟨2, ![A, B]⟩) (p : Fin A) (q : Fin B) :
    broadcastTo ⟨2, ![A, B]⟩ (shapeCast ⟨2, ![1, B]⟩ v hc) hb (ix2 p q) = v (ix1 q) :=
  (broadcastTo_1b_ab_apply (shapeCast ⟨2, ![1, B]⟩ v hc) hb p q).trans (shapeCast_a_1a_apply v hc (0 : Fin 1) q)

/-- The product into the zero accumulator plus the broadcast bias row, at `(p, q)`, is
    `∑ k, l (p, k) * r (k, q) + v q`. -/
theorem affine_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (v : FVec Ideal ⟨1, ![B]⟩ .f32)
    (hc : (⟨1, ![B]⟩ : Shape).ShapeCasts ⟨2, ![1, B]⟩) (hb : (⟨2, ![1, B]⟩ : Shape).Broadcasts ⟨2, ![A, B]⟩)
    (p : Fin A) (q : Fin B) :
    addf (matmul (plain2 wf) none l r (constant ⟨2, ![A, B]⟩ .f32 0x00000000#32))
        (broadcastTo ⟨2, ![A, B]⟩ (shapeCast ⟨2, ![1, B]⟩ v hc) hb) (ix2 p q)
      = (∑ k : Fin K, l (ix2 p k) * r (ix2 k q)) + v (ix1 q) := by
  show matmul (plain2 wf) none l r (constant ⟨2, ![A, B]⟩ .f32 0x00000000#32) (ix2 p q)
      + broadcastTo ⟨2, ![A, B]⟩ (shapeCast ⟨2, ![1, B]⟩ v hc) hb (ix2 p q) = _
  rw [matmul2_zero_apply wf l r p q, rowBroadcast_apply v hc hb p q]

end Cert.Lib

end
-- ==== Proof.LibHostDot2.lean ====
/-
  The host's plain matrix product read at an index.

  A `dot_general` on the host with the dimension numbers of a plain matrix product ("contract axis 1 of the left operand
  with axis 0 of the right, no batch axes") of an [A, K] and a [K, B] matrix is, at the ideal values and at output
  position (p, q), the sum over k < K of left(p, k) · right(k, q): the host product has no accumulator, its contraction
  shape has the one axis of extent K, and the operand indices at output (p, q) and contraction position k are (p, k)
  and (k, q). It is the same sum a `tpu.matmul` of those dimension numbers into the zero accumulator computes
  (`Cert.Lib.matmul2_zero_apply`), so a kernel that multiplies block by block and a reference that multiplies once
  agree entry by entry.
-/
import proofs.«135056_j88682484727898_2_alg».proof.Proof.LibMatmul2

noncomputable section

namespace Cert.Lib

open Idealize.ShloMosaic Idealize.ShloMosaic.ValueIdx

variable {A K B : ℕ} {φ₁ φ₂ : FTy}

/-- At output position (p, q) and contraction position k the left operand of a plain product is read at (p, k), -/
theorem plain2_lhsIdx (wf : DotDims.WF ⟨2, ![A, K]⟩ ⟨2, ![K, B]⟩ ⟨2, ![A, B]⟩ [1] [0] [0] [1] [] [])
    (p : Fin A) (q : Fin B) (k : Fin K) :
    (plain2 wf).lhsIdx (ix2 p q) ((contrEquiv1 (plain2 wf) K (plain2_rank wf) (plain2_size wf)).symm k) = ix2 p k := by
  have hk := contrEquiv1_symm_val (plain2 wf) K (plain2_rank wf) (plain2_size wf) k
  funext a; apply Fin.ext
  match a with
  | ⟨0, _⟩ => simp [DotDims.lhsIdx]; rfl
  | ⟨1, _⟩ => exact (DotDims.lhsIdx_val_of_single (plain2 wf) (cl := 1) rfl (ix2 p q) _).trans hk

/-- and the right operand at (k, q). -/
theorem plain2_rhsIdx (wf : DotDims.WF ⟨2, ![A, K]⟩ ⟨2, ![K, B]⟩ ⟨2, ![A, B]⟩ [1] [0] [0] [1] [] [])
    (p : Fin A) (q : Fin B) (k : Fin K) :
    (plain2 wf).rhsIdx (ix2 p q) ((contrEquiv1 (plain2 wf) K (plain2_rank wf) (plain2_size wf)).symm k) = ix2 k q := by
  have hk := contrEquiv1_symm_val (plain2 wf) K (plain2_rank wf) (plain2_size wf) k
  funext a; apply Fin.ext
  match a with
  | ⟨0, _⟩ => exact (DotDims.rhsIdx_val_of_single (plain2 wf) (cr := 0) rfl (ix2 p q) _).trans hk
  | ⟨1, _⟩ => simp [DotDims.rhsIdx]; rfl

/-- The host's product at (p, q) is `∑ k, l (p, k) * r (k, q)`. -/
theorem hostDot2_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    Host.dotGeneral (plain2 wf) none l r (ix2 p q) = ∑ k : Fin K, l (ix2 p k) * r (ix2 k q) := by
  refine (Ideal.dotGeneral_apply (plain2 wf) none .single l r (ix2 p q)).trans ?_
  refine (Equiv.sum_comp (contrEquiv1 (plain2 wf) K (plain2_rank wf) (plain2_size wf)).symm _).symm.trans ?_
  refine Finset.sum_congr rfl fun k _ => ?_
  show l _ * r _ = _
  rw [plain2_lhsIdx, plain2_rhsIdx]

end Cert.Lib

end
-- ==== Proof.LibHostRowCol.lean ====
/-
  A host program's two ways of spreading a vector over a matrix, read at an entry.

  jnp's `v[None, :]` against a matrix prints as two `broadcast_in_dim`s: the vector `[n]` becomes the row `[1, n]` and
  the row is repeated to `[a, n]`; `v[:, None]` likewise makes the column `[a, 1]` and repeats it to `[a, n]`. Read at
  `(r, q)` the first is the vector at `q` and the second the vector at `r`. Generic in the extents and the element type.
-/
import Idealize.ShloMosaic.Lib.Pipeline.Value
import Idealize.ShloMosaic.Lib.ValueIdx

namespace Cert.Lib

open Idealize.ShloMosaic Idealize.ShloMosaic.ValueIdx

variable {α : Type}

/-- A vector made a row and repeated down the rows reads, at `(r, q)`, the vector at `q`. -/
theorem bcast_row_rows_apply {a n : ℕ} (v : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2)) (r : Fin a) (q : Fin n) :
    broadcastInDim ⟨2, ![a, n]⟩ ![0, 1] h2 (broadcastInDim ⟨2, ![1, n]⟩ ![1] h1 v) (ix2 r q) = v (ix1 q) := by
  refine (broadcastInDim_apply _ h2 _ (ix2 r q) (ix2 (0 : Fin 1) q) fun ax => ?_).trans
    (broadcastInDim_apply _ h1 v (ix2 (0 : Fin 1) q) (ix1 q) fun ax => ?_)
  · match ax with
    | ⟨0, _⟩ => rfl
    | ⟨1, _⟩ =>
      show q.val = if n = 1 then 0 else q.val
      split
      · have := q.isLt; omega
      · rfl
  · match ax with
    | ⟨0, _⟩ =>
      show q.val = if n = 1 then 0 else q.val
      split
      · have := q.isLt; omega
      · rfl

/-- A vector made a column and repeated along the rows reads, at `(r, q)`, the vector at `r`. -/
theorem bcast_col_cols_apply {a n : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, n]⟩ (![0, 1] : Fin 2 → Fin 2)) (r : Fin a) (q : Fin n) :
    broadcastInDim ⟨2, ![a, n]⟩ ![0, 1] h2 (broadcastInDim ⟨2, ![a, 1]⟩ ![0] h1 v) (ix2 r q) = v (ix1 r) := by
  refine (broadcastInDim_apply _ h2 _ (ix2 r q) (ix2 r (0 : Fin 1)) fun ax => ?_).trans
    (broadcastInDim_apply _ h1 v (ix2 r (0 : Fin 1)) (ix1 r) fun ax => ?_)
  · match ax with
    | ⟨0, _⟩ =>
      show r.val = if a = 1 then 0 else r.val
      split
      · have := r.isLt; omega
      · rfl
    | ⟨1, _⟩ => rfl
  · match ax with
    | ⟨0, _⟩ =>
      show r.val = if a = 1 then 0 else r.val
      split
      · have := r.isLt; omega
      · rfl

end Cert.Lib
-- ==== Proof.LibHostBiasRelu.lean ====
/-
  A bias row added on the host, then a rectified linear unit, read at an entry.

  The host adds a bias vector of length B to every row of an [A, B] array by making the vector a [1, B] row and
  repeating it down the A rows, then takes the maximum with the all-zero array (the scalar zero repeated to [A, B]).
  At the ideal values entry (p, q) of the result is max (u (p, q) + bias q, 0): the repeated row reads the bias at the
  entry's column, and the repeated scalar reads zero everywhere.
-/
import proofs.«135056_j88682484727898_2_alg».proof.Proof.LibHostRowCol
import Idealize.ShloMosaic.Lib.Pipeline.Value
import Idealize.ShloMosaic.Lib.ValueIdx

noncomputable section

namespace Cert.Lib

open Idealize.ShloMosaic Idealize.ShloMosaic.ValueIdx

/-- A scalar repeated to any shape reads, at every index, the scalar. -/
theorem bcast_scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply ![] h x j ix0 fun a => a.elim0

/-- The host's bias-add and rectified linear unit at entry (p, q) is `max (u (p, q) + bias q) 0`. -/
theorem hostBiasRelu_apply {A B : ℕ} (u : FVec Ideal ⟨2, ![A, B]⟩ .f32) (bias : FVec Ideal ⟨1, ![B]⟩ .f32)
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (h0 : (⟨0, ![]⟩ : Shape).BroadcastsInDim ⟨2, ![A, B]⟩ (![] : Fin 0 → Fin 2)) (p : Fin A) (q : Fin B) :
    maximumf (addf u (broadcastInDim ⟨2, ![A, B]⟩ ![0, 1] h2 (broadcastInDim ⟨2, ![1, B]⟩ ![1] h1 bias)))
        (broadcastInDim ⟨2, ![A, B]⟩ ![] h0 (constant (F := Ideal) ⟨0, ![]⟩ .f32 0x00000000#32)) (ix2 p q)
      = max (u (ix2 p q) + bias (ix1 q)) (Ideal.ofBits .f32 0x00000000#32) := by
  rw [maximumf_apply, addf_apply, bcast_row_rows_apply bias h1 h2 p q, bcast_scalar_apply _ h0 (ix2 p q), constant_apply]

end Cert.Lib

end
-- ==== Proof.LibGcnTile.lean ====
/-
  The self-loop, bias and rectifier stage of a graph-convolution layer, read at an entry (p, q) in its two spellings.

  * In a row tile: the aggregated block plus the projected block times a column of per-row weights, the column a
    `[A, 1]` block broadcast across the lanes; plus a `[1, B]` bias row broadcast down the rows; then the maximum
    with the zero splat.
  * In a host program: the same sum with the weights a vector `[A]` made a column `[A, 1]` and repeated to
    `[A, B]`, the bias a vector `[B]` made a row `[1, B]` and repeated to `[A, B]`, and the zero a scalar
    constant repeated to `[A, B]`.

  Both read, at (p, q), `max ((agg (p, q) + xw (p, q) * w p) + bias q) 0` on the extended reals.  Generic in the two
  extents.
-/
import Idealize.ShloMosaic.Lib.ValueLayout
import Idealize.ShloMosaic.Lib.Pipeline.Value
import Idealize.ShloMosaic.Lib.ValueIdx
import proofs.«135056_j88682484727898_2_alg».proof.Proof.LibHostRowCol
import proofs.«135056_j88682484727898_2_alg».proof.Proof.LibHostBiasRelu

noncomputable section

namespace Cert.Lib

open Idealize.ShloMosaic Idealize.ShloMosaic.ValueIdx

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The stage in a row tile, at entry (p, q). -/
theorem tileSelfBiasRelu_apply {A B : ℕ} (x0 x1 : FVec Ideal ⟨2, ![A, B]⟩ .f32) (x2 : FVec Ideal ⟨2, ![A, 1]⟩ .f32)
    (x3 : FVec Ideal ⟨2, ![1, B]⟩ .f32)
    (h0 : (⟨2, ![A, B]⟩ : Shape).ShapeCasts ⟨2, ![A, B]⟩) (h2 : (⟨2, ![A, 1]⟩ : Shape).ShapeCasts ⟨2, ![A, 1]⟩)
    (hb2 : (⟨2, ![A, 1]⟩ : Shape).Broadcasts ⟨2, ![A, B]⟩) (h3 : (⟨2, ![1, B]⟩ : Shape).ShapeCasts ⟨2, ![1, B]⟩)
    (hb3 : (⟨2, ![1, B]⟩ : Shape).Broadcasts ⟨2, ![A, B]⟩) (p : Fin A) (q : Fin B) :
    maximumf (addf (addf (shapeCast ⟨2, ![A, B]⟩ x0 h0)
          (mulf (shapeCast ⟨2, ![A, B]⟩ x1 h0) (broadcastTo ⟨2, ![A, B]⟩ (shapeCast ⟨2, ![A, 1]⟩ x2 h2) hb2)))
        (broadcastTo ⟨2, ![A, B]⟩ (shapeCast ⟨2, ![1, B]⟩ x3 h3) hb3))
      (broadcast ⟨2, ![A, B]⟩ (Scalar.ofBits (F := Ideal) .f32 0x00000000#32)) (ix2 p q)
      = max ((x0 (ix2 p q) + x1 (ix2 p q) * x2 (ix2 p (0 : Fin 1))) + x3 (ix2 (0 : Fin 1) q))
          (Ideal.ofBits .f32 0x00000000#32) := by
  rw [maximumf_apply, addf_apply, addf_apply, mulf_apply, shapeCast_self, shapeCast_self, shapeCast_self,
    shapeCast_self, broadcastTo_a1_ab_apply, broadcastTo_1b_ab_apply, broadcast_apply]
  rfl

/-- The stage in a host program, at entry (p, q). -/
theorem hostSelfBiasRelu_apply {A B : ℕ} (agg xw : FVec Ideal ⟨2, ![A, B]⟩ .f32) (w : FVec Ideal ⟨1, ![A]⟩ .f32)
    (bias : FVec Ideal ⟨1, ![B]⟩ .f32)
    (hc1 : (⟨1, ![A]⟩ : Shape).BroadcastsInDim ⟨2, ![A, 1]⟩ (![0] : Fin 1 → Fin 2))
    (hc2 : (⟨2, ![A, 1]⟩ : Shape).BroadcastsInDim ⟨2, ![A, B]⟩ (![0, 1] : Fin 2 → Fin 2))
    (hr1 : (⟨1, ![B]⟩ : Shape).BroadcastsInDim ⟨2, ![1, B]⟩ (![1] : Fin 1 → Fin 2))
    (hr2 : (⟨2, ![1, B]⟩ : Shape).BroadcastsInDim ⟨2, ![A, B]⟩ (![0, 1] : Fin 2 → Fin 2))
    (hz : (⟨0, ![]⟩ : Shape).BroadcastsInDim ⟨2, ![A, B]⟩ (![] : Fin 0 → Fin 2)) (p : Fin A) (q : Fin B) :
    maximumf (addf (addf agg (mulf xw (broadcastInDim ⟨2, ![A, B]⟩ ![0, 1] hc2 (broadcastInDim ⟨2, ![A, 1]⟩ ![0] hc1 w))))
          (broadcastInDim ⟨2, ![A, B]⟩ ![0, 1] hr2 (broadcastInDim ⟨2, ![1, B]⟩ ![1] hr1 bias)))
        (broadcastInDim ⟨2, ![A, B]⟩ ![] hz (constant (F := Ideal) ⟨0, ![]⟩ .f32 0x00000000#32)) (ix2 p q)
      = max ((agg (ix2 p q) + xw (ix2 p q) * w (ix1 p)) + bias (ix1 q)) (Ideal.ofBits .f32 0x00000000#32) := by
  rw [hostBiasRelu_apply _ bias hr1 hr2 hz p q, addf_apply, mulf_apply, bcast_col_cols_apply w hc1 hc2 p q]

end Cert.Lib

end
-- ==== Proof.LibSageDense.lean ====
/-
  The dense stage of a mean-aggregating graph layer, read at an entry (p, q), in its two spellings.

  The stage takes, for A nodes, the summed neighbour features `agg` [A, K], the neighbour counts `cnt` [A, 1], the
  nodes' own features `x` [A, K], two weight matrices `wn`, `wr` [K, B] and a bias `b` [B], and its entry (p, q) is

      (Σ_k (agg(p,k) / max(cnt(p,0), 1)) · wn(k,q)  +  Σ_k x(p,k) · wr(k,q))  +  b(q)

  on the extended reals (`Cert.Lib.sageAt`).

  * In a row tile: the count column is capped below by the splat of one and broadcast across the K lanes, the summed
    block is divided by it entrywise and narrowed; that mean block and the (narrowed, or merely re-shaped) own block are
    each multiplied by a weight matrix into the zero accumulator; the two products are added, and a `[B]` bias, cast to
    a `[1, B]` row and broadcast down the rows, is added last. Optionally the maximum with the zero splat follows,
    and a narrowing of the result.
  * In a host program: the same, with the count column capped by a scalar one repeated to `[A, 1]` and then repeated
    to `[A, K]`, the host's quotient, the host's plain products, the bias a vector made a row and repeated to
    `[A, B]`, and optionally the maximum with a scalar zero repeated to `[A, B]`.

  At the ideal values a narrowing reads its operand unchanged, so both spellings read `sageAt` at (p, q), or its
  maximum with zero. Generic in the three extents.
-/
import Idealize.ShloMosaic.Lib.ValueLayout
import Idealize.ShloMosaic.Lib.Pipeline.Value
import Idealize.ShloMosaic.Lib.ValueIdx
import Idealize.ShloMosaic.Lib.IdealHost
import proofs.«135056_j88682484727898_2_alg».proof.Proof.LibSageSpec
import proofs.«135056_j88682484727898_2_alg».proof.Proof.LibAffineLayer
import proofs.«135056_j88682484727898_2_alg».proof.Proof.LibHostDot2
import proofs.«135056_j88682484727898_2_alg».proof.Proof.LibGcnTile

noncomputable section

namespace Cert.Lib

open Idealize.ShloMosaic Idealize.ShloMosaic.ValueIdx

variable {A K B : ℕ} {φx φw : FTy}

/-! ## The row tile's spelling -/

/-- The tile's mean block: the summed block over the count column capped below by one, narrowed. At (p, k) it is
    `agg (p, k) / max (cnt (p, 0)) 1`. -/
theorem tileMean_apply (agg : FVec Ideal ⟨2, ![A, K]⟩ .f32) (cnt : FVec Ideal ⟨2, ![A, 1]⟩ .f32)
    (h : (⟨2, ![A, K]⟩ : Shape).ShapeCasts ⟨2, ![A, K]⟩) (h' : (⟨2, ![A, 1]⟩ : Shape).ShapeCasts ⟨2, ![A, 1]⟩)
    (hb : (⟨2, ![A, 1]⟩ : Shape).Broadcasts ⟨2, ![A, K]⟩) (hlt : FTy.bits .bf16 < FTy.bits .f32)
    (p : Fin A) (k : Fin K) :
    truncf .bf16 (divf (shapeCast ⟨2, ![A, K]⟩ agg h)
        (broadcastTo ⟨2, ![A, K]⟩ (maximumf (shapeCast ⟨2, ![A, 1]⟩ cnt h')
          (broadcast ⟨2, ![A, 1]⟩ (Scalar.ofBits (F := Ideal) .f32 0x3F800000#32))) hb)) hlt (ix2 p k)
      = Ideal.div (agg (ix2 p k)) (max (cnt (ix2 p (0 : Fin 1))) (Ideal.ofBits .f32 0x3F800000#32)) := by
  rw [truncf_apply, divf_apply, shapeCast_self, broadcastTo_a1_ab_apply, maximumf_apply, shapeCast_self,
    broadcast_apply]
  rfl

/-- The tile's stage with the own block `x'` as the second product's left operand, at (p, q). -/
theorem tileSage_apply (wf : DotDims.WF ⟨2, ![A, K]⟩ ⟨2, ![K, B]⟩ ⟨2, ![A, B]⟩ [1] [0] [0] [1] [] [])
    (agg : FVec Ideal ⟨2, ![A, K]⟩ .f32) (cnt : FVec Ideal ⟨2, ![A, 1]⟩ .f32) (x' : FVec Ideal ⟨2, ![A, K]⟩ φx)
    (wn wr : FVec Ideal ⟨2, ![K, B]⟩ φw) (b : FVec Ideal ⟨1, ![B]⟩ .f32)
    (h : (⟨2, ![A, K]⟩ : Shape).ShapeCasts ⟨2, ![A, K]⟩) (h' : (⟨2, ![A, 1]⟩ : Shape).ShapeCasts ⟨2, ![A, 1]⟩)
    (hb : (⟨2, ![A, 1]⟩ : Shape).Broadcasts ⟨2, ![A, K]⟩) (hlt : FTy.bits .bf16 < FTy.bits .f32)
    (hw : (⟨2, ![K, B]⟩ : Shape).ShapeCasts ⟨2, ![K, B]⟩)
    (hc : (⟨1, ![B]⟩ : Shape).ShapeCasts ⟨2, ![1, B]⟩) (hbb : (⟨2, ![1, B]⟩ : Shape).Broadcasts ⟨2, ![A, B]⟩)
    (p : Fin A) (q : Fin B) :
    addf (addf
        (matmul (plain2 wf) none
          (truncf .bf16 (divf (shapeCast ⟨2, ![A, K]⟩ agg h)
            (broadcastTo ⟨2, ![A, K]⟩ (maximumf (shapeCast ⟨2, ![A, 1]⟩ cnt h')
              (broadcast ⟨2, ![A, 1]⟩ (Scalar.ofBits (F := Ideal) .f32 0x3F800000#32))) hb)) hlt)
          (shapeCast ⟨2, ![K, B]⟩ wn hw) (constant ⟨2, ![A, B]⟩ .f32 0x00000000#32))
        (matmul (plain2 wf) none x' (shapeCast ⟨2, ![K, B]⟩ wr hw) (constant ⟨2, ![A, B]⟩ .f32 0x00000000#32)))
      (broadcastTo ⟨2, ![A, B]⟩ (shapeCast ⟨2, ![1, B]⟩ b hc) hbb) (ix2 p q)
      = sageAt agg cnt x' wn wr b p q := by
  rw [addf_apply, addf_apply, matmul2_zero_apply, matmul2_zero_apply, rowBroadcast_apply b hc hbb p q,
    shapeCast_self wn hw, shapeCast_self wr hw]
  unfold sageAt
  refine congrArg (· + b (ix1 q)) (congrArg (· + ∑ k : Fin K, x' (ix2 p k) * wr (ix2 k q)) ?_)
  exact Finset.sum_congr rfl fun k _ => congrArg (· * wn (ix2 k q)) (tileMean_apply agg cnt h h' hb hlt p k)

/-- The tile's stage when the own block is single precision and is narrowed before its product, followed by the
    maximum with the zero splat and a narrowing of the result: at (p, q) it is `max (sageAt ..) 0`. -/
theorem tileSageRelu_apply (wf : DotDims.WF ⟨2, ![A, K]⟩ ⟨2, ![K, B]⟩ ⟨2, ![A, B]⟩ [1] [0] [0] [1] [] [])
    (agg : FVec Ideal ⟨2, ![A, K]⟩ .f32) (cnt : FVec Ideal ⟨2, ![A, 1]⟩ .f32) (x : FVec Ideal ⟨2, ![A, K]⟩ .f32)
    (wn wr : FVec Ideal ⟨2, ![K, B]⟩ φw) (b : FVec Ideal ⟨1, ![B]⟩ .f32)
    (h : (⟨2, ![A, K]⟩ : Shape).ShapeCasts ⟨2, ![A, K]⟩) (h' : (⟨2, ![A, 1]⟩ : Shape).ShapeCasts ⟨2, ![A, 1]⟩)
    (hb : (⟨2, ![A, 1]⟩ : Shape).Broadcasts ⟨2, ![A, K]⟩) (hlt : FTy.bits .bf16 < FTy.bits .f32)
    (hw : (⟨2, ![K, B]⟩ : Shape).ShapeCasts ⟨2, ![K, B]⟩)
    (hc : (⟨1, ![B]⟩ : Shape).ShapeCasts ⟨2, ![1, B]⟩) (hbb : (⟨2, ![1, B]⟩ : Shape).Broadcasts ⟨2, ![A, B]⟩)
    (p : Fin A) (q : Fin B) :
    truncf .bf16 (maximumf
        (addf (addf
          (matmul (plain2 wf) none
            (truncf .bf16 (divf (shapeCast ⟨2, ![A, K]⟩ agg h)
              (broadcastTo ⟨2, ![A, K]⟩ (maximumf (shapeCast ⟨2, ![A, 1]⟩ cnt h')
                (broadcast ⟨2, ![A, 1]⟩ (Scalar.ofBits (F := Ideal) .f32 0x3F800000#32))) hb)) hlt)
            (shapeCast ⟨2, ![K, B]⟩ wn hw) (constant ⟨2, ![A, B]⟩ .f32 0x00000000#32))
          (matmul (plain2 wf) none (truncf .bf16 x hlt) (shapeCast ⟨2, ![K, B]⟩ wr hw)
            (constant ⟨2, ![A, B]⟩ .f32 0x00000000#32)))
        (broadcastTo ⟨2, ![A, B]⟩ (shapeCast ⟨2, ![1, B]⟩ b hc) hbb))
        (broadcast ⟨2, ![A, B]⟩ (Scalar.ofBits (F := Ideal) .f32 0x00000000#32))) hlt (ix2 p q)
      = max (sageAt agg cnt x wn wr b p q) (Ideal.ofBits .f32 0x00000000#32) := by
  rw [truncf_apply, maximumf_apply, broadcast_apply,
    tileSage_apply wf agg cnt (truncf .bf16 x hlt) wn wr b h h' hb hlt hw hc hbb p q]
  rfl

/-- The tile's stage when the own block is already narrow and is only re-shaped to its own shape before its product,
    with nothing after the bias: at (p, q) it is `sageAt ..`. -/
theorem tileSageLin_apply (wf : DotDims.WF ⟨2, ![A, K]⟩ ⟨2, ![K, B]⟩ ⟨2, ![A, B]⟩ [1] [0] [0] [1] [] [])
    (agg : FVec Ideal ⟨2, ![A, K]⟩ .f32) (cnt : FVec Ideal ⟨2, ![A, 1]⟩ .f32) (x : FVec Ideal ⟨2, ![A, K]⟩ φx)
    (wn wr : FVec Ideal ⟨2, ![K, B]⟩ φw) (b : FVec Ideal ⟨1, ![B]⟩ .f32)
    (h : (⟨2, ![A, K]⟩ : Shape).ShapeCasts ⟨2, ![A, K]⟩) (h' : (⟨2, ![A, 1]⟩ : Shape).ShapeCasts ⟨2, ![A, 1]⟩)
    (hb : (⟨2, ![A, 1]⟩ : Shape).Broadcasts ⟨2, ![A, K]⟩) (hlt : FTy.bits .bf16 < FTy.bits .f32)
    (hw : (⟨2, ![K, B]⟩ : Shape).ShapeCasts ⟨2, ![K, B]⟩)
    (hc : (⟨1, ![B]⟩ : Shape).ShapeCasts ⟨2, ![1, B]⟩) (hbb : (⟨2, ![1, B]⟩ : Shape).Broadcasts ⟨2, ![A, B]⟩)
    (p : Fin A) (q : Fin B) :
    addf (addf
        (matmul (plain2 wf) none
          (truncf .bf16 (divf (shapeCast ⟨2, ![A, K]⟩ agg h)
            (broadcastTo ⟨2, ![A, K]⟩ (maximumf (shapeCast ⟨2, ![A, 1]⟩ cnt h')
              (broadcast ⟨2, ![A, 1]⟩ (Scalar.ofBits (F := Ideal) .f32 0x3F800000#32))) hb)) hlt)
          (shapeCast ⟨2, ![K, B]⟩ wn hw) (constant ⟨2, ![A, B]⟩ .f32 0x00000000#32))
        (matmul (plain2 wf) none (shapeCast ⟨2, ![A, K]⟩ x h) (shapeCast ⟨2, ![K, B]⟩ wr hw)
          (constant ⟨2, ![A, B]⟩ .f32 0x00000000#32)))
      (broadcastTo ⟨2, ![A, B]⟩ (shapeCast ⟨2, ![1, B]⟩ b hc) hbb) (ix2 p q)
      = sageAt agg cnt x wn wr b p q := by
  rw [shapeCast_self x h]
  exact tileSage_apply wf agg cnt x wn wr b h h' hb hlt hw hc hbb p q

/-! ## The host program's spelling -/

/-- An `[a, 1]` column repeated to `[a, b]` by the host reads, at `(p, c)`, the column at row `p`. -/
theorem bcastInDim_a1_ab_apply {α : Type} {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's mean block: the summed array over the count column capped below by the scalar one repeated to a column,
    the capped column repeated across the K columns. At (p, k) it is `agg (p, k) / max (cnt (p, 0)) 1`. -/
theorem hostMean_apply (agg : FVec Ideal ⟨2, ![A, K]⟩ .f32) (cnt : FVec Ideal ⟨2, ![A, 1]⟩ .f32)
    (h1 : (⟨0, ![]⟩ : Shape).BroadcastsInDim ⟨2, ![A, 1]⟩ (![] : Fin 0 → Fin 2))
    (hcol : (⟨2, ![A, 1]⟩ : Shape).BroadcastsInDim ⟨2, ![A, K]⟩ (![0, 1] : Fin 2 → Fin 2))
    (p : Fin A) (k : Fin K) :
    Host.divf agg (broadcastInDim ⟨2, ![A, K]⟩ ![0, 1] hcol
        (maximumf cnt (broadcastInDim ⟨2, ![A, 1]⟩ ![] h1 (constant (F := Ideal) ⟨0, ![]⟩ .f32 0x3F800000#32))))
        (ix2 p k)
      = Ideal.div (agg (ix2 p k)) (max (cnt (ix2 p (0 : Fin 1))) (Ideal.ofBits .f32 0x3F800000#32)) := by
  rw [hostDivf_apply, bcastInDim_a1_ab_apply _ hcol p k, maximumf_apply, bcast_scalar_apply _ h1 (ix2 p (0 : Fin 1)),
    constant_apply]

/-- The host's stage at (p, q). -/
theorem hostSage_apply (wf : DotDims.WF ⟨2, ![A, K]⟩ ⟨2, ![K, B]⟩ ⟨2, ![A, B]⟩ [1] [0] [0] [1] [] [])
    (agg : FVec Ideal ⟨2, ![A, K]⟩ .f32) (cnt : FVec Ideal ⟨2, ![A, 1]⟩ .f32) (x : FVec Ideal ⟨2, ![A, K]⟩ φx)
    (wn wr : FVec Ideal ⟨2, ![K, B]⟩ φw) (b : FVec Ideal ⟨1, ![B]⟩ .f32)
    (h1 : (⟨0, ![]⟩ : Shape).BroadcastsInDim ⟨2, ![A, 1]⟩ (![] : Fin 0 → Fin 2))
    (hcol : (⟨2, ![A, 1]⟩ : Shape).BroadcastsInDim ⟨2, ![A, K]⟩ (![0, 1] : Fin 2 → Fin 2))
    (hr1 : (⟨1, ![B]⟩ : Shape).BroadcastsInDim ⟨2, ![1, B]⟩ (![1] : Fin 1 → Fin 2))
    (hr2 : (⟨2, ![1, B]⟩ : Shape).BroadcastsInDim ⟨2, ![A, B]⟩ (![0, 1] : Fin 2 → Fin 2))
    (p : Fin A) (q : Fin B) :
    addf (addf
        (Host.dotGeneral (plain2 wf) none
          (Host.divf agg (broadcastInDim ⟨2, ![A, K]⟩ ![0, 1] hcol
            (maximumf cnt (broadcastInDim ⟨2, ![A, 1]⟩ ![] h1 (constant (F := Ideal) ⟨0, ![]⟩ .f32 0x3F800000#32)))))
          wn)
        (Host.dotGeneral (plain2 wf) none x wr))
      (broadcastInDim ⟨2, ![A, B]⟩ ![0, 1] hr2 (broadcastInDim ⟨2, ![1, B]⟩ ![1] hr1 b)) (ix2 p q)
      = sageAt agg cnt x wn wr b p q := by
  rw [addf_apply, addf_apply, hostDot2_apply, hostDot2_apply, bcast_row_rows_apply b hr1 hr2 p q]
  unfold sageAt
  refine congrArg (· + b (ix1 q)) (congrArg (· + ∑ k : Fin K, x (ix2 p k) * wr (ix2 k q)) ?_)
  exact Finset.sum_congr rfl fun k _ => congrArg (· * wn (ix2 k q)) (hostMean_apply agg cnt h1 hcol p k)

/-- The host's stage followed by the maximum with the scalar zero repeated to `[A, B]`, at (p, q). -/
theorem hostSageRelu_apply (wf : DotDims.WF ⟨2, ![A, K]⟩ ⟨2, ![K, B]⟩ ⟨2, ![A, B]⟩ [1] [0] [0] [1] [] [])
    (agg : FVec Ideal ⟨2, ![A, K]⟩ .f32) (cnt : FVec Ideal ⟨2, ![A, 1]⟩ .f32) (x : FVec Ideal ⟨2, ![A, K]⟩ φx)
    (wn wr : FVec Ideal ⟨2, ![K, B]⟩ φw) (b : FVec Ideal ⟨1, ![B]⟩ .f32)
    (h1 : (⟨0, ![]⟩ : Shape).BroadcastsInDim ⟨2, ![A, 1]⟩ (![] : Fin 0 → Fin 2))
    (hcol : (⟨2, ![A, 1]⟩ : Shape).BroadcastsInDim ⟨2, ![A, K]⟩ (![0, 1] : Fin 2 → Fin 2))
    (hr1 : (⟨1, ![B]⟩ : Shape).BroadcastsInDim ⟨2, ![1, B]⟩ (![1] : Fin 1 → Fin 2))
    (hr2 : (⟨2, ![1, B]⟩ : Shape).BroadcastsInDim ⟨2, ![A, B]⟩ (![0, 1] : Fin 2 → Fin 2))
    (hz : (⟨0, ![]⟩ : Shape).BroadcastsInDim ⟨2, ![A, B]⟩ (![] : Fin 0 → Fin 2))
    (p : Fin A) (q : Fin B) :
    maximumf
      (addf (addf
        (Host.dotGeneral (plain2 wf) none
          (Host.divf agg (broadcastInDim ⟨2, ![A, K]⟩ ![0, 1] hcol
            (maximumf cnt (broadcastInDim ⟨2, ![A, 1]⟩ ![] h1 (constant (F := Ideal) ⟨0, ![]⟩ .f32 0x3F800000#32)))))
          wn)
        (Host.dotGeneral (plain2 wf) none x wr))
      (broadcastInDim ⟨2, ![A, B]⟩ ![0, 1] hr2 (broadcastInDim ⟨2, ![1, B]⟩ ![1] hr1 b)))
      (broadcastInDim ⟨2, ![A, B]⟩ ![] hz (constant (F := Ideal) ⟨0, ![]⟩ .f32 0x00000000#32)) (ix2 p q)
      = max (sageAt agg cnt x wn wr b p q) (Ideal.ofBits .f32 0x00000000#32) := by
  rw [maximumf_apply, bcast_scalar_apply _ hz (ix2 p q), constant_apply,
    hostSage_apply wf agg cnt x wn wr b h1 hcol hr1 hr2 p q]

/-- The host's stage as a whole array is `sageLin`. -/
theorem hostSage_eq (wf : DotDims.WF ⟨2, ![A, K]⟩ ⟨2, ![K, B]⟩ ⟨2, ![A, B]⟩ [1] [0] [0] [1] [] [])
    (agg : FVec Ideal ⟨2, ![A, K]⟩ .f32) (cnt : FVec Ideal ⟨2, ![A, 1]⟩ .f32) (x : FVec Ideal ⟨2, ![A, K]⟩ φx)
    (wn wr : FVec Ideal ⟨2, ![K, B]⟩ φw) (b : FVec Ideal ⟨1, ![B]⟩ .f32)
    (h1 : (⟨0, ![]⟩ : Shape).BroadcastsInDim ⟨2, ![A, 1]⟩ (![] : Fin 0 → Fin 2))
    (hcol : (⟨2, ![A, 1]⟩ : Shape).BroadcastsInDim ⟨2, ![A, K]⟩ (![0, 1] : Fin 2 → Fin 2))
    (hr1 : (⟨1, ![B]⟩ : Shape).BroadcastsInDim ⟨2, ![1, B]⟩ (![1] : Fin 1 → Fin 2))
    (hr2 : (⟨2, ![1, B]⟩ : Shape).BroadcastsInDim ⟨2, ![A, B]⟩ (![0, 1] : Fin 2 → Fin 2)) :
    addf (addf
        (Host.dotGeneral (plain2 wf) none
          (Host.divf agg (broadcastInDim ⟨2, ![A, K]⟩ ![0, 1] hcol
            (maximumf cnt (broadcastInDim ⟨2, ![A, 1]⟩ ![] h1 (constant (F := Ideal) ⟨0, ![]⟩ .f32 0x3F800000#32)))))
          wn)
        (Host.dotGeneral (plain2 wf) none x wr))
      (broadcastInDim ⟨2, ![A, B]⟩ ![0, 1] hr2 (broadcastInDim ⟨2, ![1, B]⟩ ![1] hr1 b))
      = sageLin agg cnt x wn wr b := by
  funext i
  obtain ⟨p, q, rfl⟩ : ∃ p q, i = ix2 p q := ⟨i 0, i 1, eq_ix2 i⟩
  exact hostSage_apply wf agg cnt x wn wr b h1 hcol hr1 hr2 p q

/-- The host's stage followed by the maximum with zero, as a whole array, is `sageRelu`. -/
theorem hostSageRelu_eq (wf : DotDims.WF ⟨2, ![A, K]⟩ ⟨2, ![K, B]⟩ ⟨2, ![A, B]⟩ [1] [0] [0] [1] [] [])
    (agg : FVec Ideal ⟨2, ![A, K]⟩ .f32) (cnt : FVec Ideal ⟨2, ![A, 1]⟩ .f32) (x : FVec Ideal ⟨2, ![A, K]⟩ φx)
    (wn wr : FVec Ideal ⟨2, ![K, B]⟩ φw) (b : FVec Ideal ⟨1, ![B]⟩ .f32)
    (h1 : (⟨0, ![]⟩ : Shape).BroadcastsInDim ⟨2, ![A, 1]⟩ (![] : Fin 0 → Fin 2))
    (hcol : (⟨2, ![A, 1]⟩ : Shape).BroadcastsInDim ⟨2, ![A, K]⟩ (![0, 1] : Fin 2 → Fin 2))
    (hr1 : (⟨1, ![B]⟩ : Shape).BroadcastsInDim ⟨2, ![1, B]⟩ (![1] : Fin 1 → Fin 2))
    (hr2 : (⟨2, ![1, B]⟩ : Shape).BroadcastsInDim ⟨2, ![A, B]⟩ (![0, 1] : Fin 2 → Fin 2))
    (hz : (⟨0, ![]⟩ : Shape).BroadcastsInDim ⟨2, ![A, B]⟩ (![] : Fin 0 → Fin 2)) :
    maximumf
      (addf (addf
        (Host.dotGeneral (plain2 wf) none
          (Host.divf agg (broadcastInDim ⟨2, ![A, K]⟩ ![0, 1] hcol
            (maximumf cnt (broadcastInDim ⟨2, ![A, 1]⟩ ![] h1 (constant (F := Ideal) ⟨0, ![]⟩ .f32 0x3F800000#32)))))
          wn)
        (Host.dotGeneral (plain2 wf) none x wr))
      (broadcastInDim ⟨2, ![A, B]⟩ ![0, 1] hr2 (broadcastInDim ⟨2, ![1, B]⟩ ![1] hr1 b)))
      (broadcastInDim ⟨2, ![A, B]⟩ ![] hz (constant (F := Ideal) ⟨0, ![]⟩ .f32 0x00000000#32))
      = sageRelu agg cnt x wn wr b := by
  funext i
  obtain ⟨p, q, rfl⟩ : ∃ p q, i = ix2 p q := ⟨i 0, i 1, eq_ix2 i⟩
  exact hostSageRelu_apply wf agg cnt x wn wr b h1 hcol hr1 hr2 hz p q

end Cert.Lib

end
-- ==== Proof.KTile.lean ====
/-
  The four row-tile bodies of the dense stage of a mean-aggregating graph layer, read at an entry.

  Each body takes a tile of 5000 nodes: the counts column [5000, 1], the summed neighbour features [5000, 128], the
  nodes' own features [5000, 128], two weight matrices [128, 128] and a bias [128]. It divides the summed block by the
  count column capped below by one, multiplies that mean block and the own block each by its weight matrix into the zero
  accumulator, adds the two products and then the bias row. The first two bodies narrow a single-precision own block
  before its product and finish with the maximum with zero and a narrowing; the last two take an own block that is
  already narrow and stop at the bias.

  At the ideal values narrowing reads its operand unchanged, so at entry (p, q) the first two bodies are
  `max (sageAt ..) 0` and the last two are `sageAt ..`, with `Cert.Lib.sageAt` the stage's entry

      (Σ_k (agg(p,k) / max(cnt(p,0), 1)) · wn(k,q)  +  Σ_k x(p,k) · wr(k,q))  +  b(q).
-/
import proofs.«135056_j88682484727898_2_alg».proof.Proof.Gen.KernelIdeal.Skeleton
import proofs.«135056_j88682484727898_2_alg».proof.Proof.LibSageDense

noncomputable section

namespace Cert.KernelIdeal.Tile

open Idealize.ShloMosaic Idealize.ShloMosaic.ValueIdx Cert.KernelIdeal

/-- The tile's product record is that of a plain matrix product: contract axis 1 of the left operand with axis 0 of
    the right, no batch axes. -/
theorem dot_eq_plain2 :
    dot_S5000x128_S128x128_S5000x128_1_0_0_1_n_n
      = Cert.Lib.plain2 Gen.dot_S5000x128_S128x128_S5000x128_1_0_0_1_n_n_wf := rfl

/-- The first body at entry (p, q): the stage's entry, then the maximum with zero. -/
theorem pay0_apply (v0 : Vec Ideal S5000x1 .f32) (v4 : Vec Ideal S5000x128 .f32) (v9 : Vec Ideal S5000x128 .f32)
    (v11 : Vec Ideal S128x128 .bf16) (v14 : Vec Ideal S128x128 .bf16) (v18 : Vec Ideal S128 .f32)
    (p : Fin 5000) (q : Fin 128) :
    Gen.k0_pay1 (F := Ideal) v0 v4 v9 v11 v14 v18 (ix2 p q)
      = max (Cert.Lib.sageAt v4 v0 v9 v11 v14 v18 p q) (Ideal.ofBits .f32 0x00000000#32) := by
  unfold Gen.k0_pay1
  rw [dot_eq_plain2]
  exact Cert.Lib.tileSageRelu_apply Gen.dot_S5000x128_S128x128_S5000x128_1_0_0_1_n_n_wf v4 v0 v9 v11 v14 v18
    _ _ _ _ _ _ _ p q

/-- The second body at entry (p, q): the same as the first. -/
theorem pay1_apply (v0 : Vec Ideal S5000x1 .f32) (v4 : Vec Ideal S5000x128 .f32) (v9 : Vec Ideal S5000x128 .f32)
    (v11 : Vec Ideal S128x128 .bf16) (v14 : Vec Ideal S128x128 .bf16) (v18 : Vec Ideal S128 .f32)
    (p : Fin 5000) (q : Fin 128) :
    Gen.k1_pay1 (F := Ideal) v0 v4 v9 v11 v14 v18 (ix2 p q)
      = max (Cert.Lib.sageAt v4 v0 v9 v11 v14 v18 p q) (Ideal.ofBits .f32 0x00000000#32) := by
  unfold Gen.k1_pay1
  rw [dot_eq_plain2]
  exact Cert.Lib.tileSageRelu_apply Gen.dot_S5000x128_S128x128_S5000x128_1_0_0_1_n_n_wf v4 v0 v9 v11 v14 v18
    _ _ _ _ _ _ _ p q

/-- The third body at entry (p, q): the stage's entry. -/
theorem pay2_apply (v0 : Vec Ideal S5000x1 .f32) (v4 : Vec Ideal S5000x128 .f32) (v9 : Vec Ideal S5000x128 .bf16)
    (v11 : Vec Ideal S128x128 .bf16) (v14 : Vec Ideal S128x128 .bf16) (v18 : Vec Ideal S128 .f32)
    (p : Fin 5000) (q : Fin 128) :
    Gen.k2_pay1 (F := Ideal) v0 v4 v9 v11 v14 v18 (ix2 p q) = Cert.Lib.sageAt v4 v0 v9 v11 v14 v18 p q := by
  unfold Gen.k2_pay1
  rw [dot_eq_plain2]
  exact Cert.Lib.tileSageLin_apply Gen.dot_S5000x128_S128x128_S5000x128_1_0_0_1_n_n_wf v4 v0 v9 v11 v14 v18
    _ _ _ _ _ _ _ p q

/-- The fourth body at entry (p, q): the same as the third. -/
theorem pay3_apply (v0 : Vec Ideal S5000x1 .f32) (v4 : Vec Ideal S5000x128 .f32) (v9 : Vec Ideal S5000x128 .bf16)
    (v11 : Vec Ideal S128x128 .bf16) (v14 : Vec Ideal S128x128 .bf16) (v18 : Vec Ideal S128 .f32)
    (p : Fin 5000) (q : Fin 128) :
    Gen.k3_pay1 (F := Ideal) v0 v4 v9 v11 v14 v18 (ix2 p q) = Cert.Lib.sageAt v4 v0 v9 v11 v14 v18 p q := by
  unfold Gen.k3_pay1
  rw [dot_eq_plain2]
  exact Cert.Lib.tileSageLin_apply Gen.dot_S5000x128_S128x128_S5000x128_1_0_0_1_n_n_wf v4 v0 v9 v11 v14 v18
    _ _ _ _ _ _ _ p q

end Cert.KernelIdeal.Tile

end
-- ==== Proof.KRegion0.lean ====
/-
  What dense stage 0 of the kernel program leaves in its output array.

  The stage is a row-tiled pipeline over 4 tiles of 5000 rows: tile t fetches rows 5000 t … 5000 t + 4999 of the
  summed neighbour features, of the neighbour counts and of the nodes' own features, and the two whole weight matrices
  and the whole bias; it writes back rows 5000 t … 5000 t + 4999 of the result.  Entry (p, q) of what tile t writes is
  the stage's formula on row p of the tile's blocks, which is row 5000 t + p of the whole arrays; the 4 tiles cover
  all 20000 rows (row r lies in tile r / 5000).  So the output array ends as the whole-array stage function
  (`Cert.Lib.sageRelu`) of the six arrays the stage was entered with, whatever those are.
-/
import proofs.«135056_j88682484727898_2_alg».proof.Proof.Gen.KernelIdeal.Frame
import proofs.«135056_j88682484727898_2_alg».proof.Proof.KTile
import proofs.«135056_j88682484727898_2_alg».proof.Proof.LibSageSpec
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The stage function of the arrays the region is entered with. -/
abbrev G (c : Dev nD) : S20000x128.Idx → EReal :=
  Cert.Lib.sageRelu (V c main_v14) (V c main_v23) (V c main_arg1) (V c main_v24) (V c main_v25) (V c main_arg14)

/-- The printed index maps over the grid: the three row-blocked inputs move with the output, tile t at row block t;
    the weights and the bias stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Every row block is some tile's. -/
theorem idx_onto : ∀ (q0 : Fin 4), ∃ t : Fin cfg0.N, t.val = q0.val :=
  (by decide +kernel : ∀ (q0 : Fin 4), ∃ t : Fin grid0.N, t.val = q0.val)

theorem t_lt (t : Fin cfg0.N) : t.val < 4 := by
  have h := t.isLt
  have hN : cfg0.N = 4 := N_0
  omega

/-- The formula on a tile's blocks is the whole-array stage function on the tile's rows: stated over variables. -/
theorem tile_eq (agg : S20000x128.Idx → EReal) (cnt : S20000x1.Idx → EReal) (x : S20000x128.Idx → EReal)
    (wn wr : S128x128.Idx → EReal) (b : S128.Idx → EReal)
    (x0 : Vec Ideal S5000x128 .f32) (x1 : Vec Ideal S5000x1 .f32) (x2 : Vec Ideal S5000x128 .f32)
    (x3 x4 : Vec Ideal S128x128 .bf16) (x5 : Vec Ideal S128 .f32) (T : ℕ) (hT : T < 4)
    (h0 : ∀ (p : Fin 5000) (k : Fin 128), x0 (ix2 p k) = agg (ix2 (⟨T * 5000 + p.val, by have := p.isLt; omega⟩ : Fin 20000) k))
    (h1 : ∀ (p : Fin 5000), x1 (ix2 p (0 : Fin 1)) = cnt (ix2 (⟨T * 5000 + p.val, by have := p.isLt; omega⟩ : Fin 20000) (0 : Fin 1)))
    (h2 : ∀ (p : Fin 5000) (k : Fin 128), x2 (ix2 p k) = x (ix2 (⟨T * 5000 + p.val, by have := p.isLt; omega⟩ : Fin 20000) k))
    (h3 : ∀ (k q : Fin 128), x3 (ix2 k q) = wn (ix2 k q)) (h4 : ∀ (k q : Fin 128), x4 (ix2 k q) = wr (ix2 k q))
    (h5 : ∀ q : Fin 128, x5 (ix1 q) = b (ix1 q)) (p : Fin 5000) (q : Fin 128) :
    k0_pay1 (F := Ideal) x1 x0 x2 x3 x4 x5 (ix2 p q)
      = Cert.Lib.sageRelu agg cnt x wn wr b (ix2 (⟨T * 5000 + p.val, by have := p.isLt; omega⟩ : Fin 20000) q) := by
  refine (Cert.KernelIdeal.Tile.pay0_apply x1 x0 x2 x3 x4 x5 p q).trans ?_
  rw [Cert.Lib.sageRelu_apply]
  unfold Cert.Lib.sageAt
  simp only [h0, h1, h2, h3, h4, h5]

/-- WHAT TILE t WRITES BACK is block t of the stage function of the entry arrays. -/
theorem flushed_eq (c : Dev nD) (t : Fin cfg0.N) :
    (dat0 (F := Ideal) V c).flushed 6 t = ((cfg0.win 6).blk t).view.read (Elt Ideal) (G V c) := by
  show (cfg0.win 6).cut (grid0.coords t) ((dat0 (F := Ideal) V c).after 6 t) = _
  rw [after0_6]
  unfold out0_6
  rw [View.canon_unit_zero hz2]
  simp only [View.ld_unit_zero (S := S5000x128) hz2, View.ld_unit_zero (S := S5000x1) hz2,
    View.ld_unit_zero (S := S128x128) hz2, View.ld_unit_zero (S := S128) hz1]
  obtain ⟨e00, e01, e10, e11, e20, e21, e30, e31, e40, e41, e50, e60, e61⟩ := idx_facts t
  have hT := t_lt t
  funext j
  obtain ⟨p, q, rfl⟩ : ∃ (p : Fin 5000) (q : Fin 128), j = ix2 p q := ⟨j 0, j 1, eq_ix2 j⟩
  have hp := p.isLt
  have hq := q.isLt
  refine (tile_eq (V c main_v14) (V c main_v23) (V c main_arg1) (V c main_v24) (V c main_v25) (V c main_arg14)
    (iblk0 V c 0 t) (iblk0 V c 1 t) (iblk0 V c 2 t) (iblk0 V c 3 t) (iblk0 V c 4 t) (iblk0 V c 5 t) t.val hT
    (fun p k => ?_) (fun p => ?_) (fun p k => ?_) (fun k q => ?_) (fun k q => ?_) (fun q => ?_) p q).trans ?_
  · show V c main_v14 (((cfg0.win 0).blk t).view.emb (ix2 p k)) = _
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c main_v23 (((cfg0.win 1).blk t).view.emb (ix2 p (0 : Fin 1))) = _
    refine congrArg _ (funext fun a => Fin.ext ?_)
    match a with
    | ⟨0, _⟩ => show win0_1.index t (0 : Fin 2) * 5000 + 1 * p.val = t.val * 5000 + p.val; omega
    | ⟨1, _⟩ => show win0_1.index t (1 : Fin 2) * 1 + 1 * 0 = 0; omega
  · show V c main_arg1 (((cfg0.win 2).blk t).view.emb (ix2 p k)) = _
    refine congrArg _ (funext fun a => Fin.ext ?_)
    match a with
    | ⟨0, _⟩ => show win0_2.index t (0 : Fin 2) * 5000 + 1 * p.val = t.val * 5000 + p.val; omega
    | ⟨1, _⟩ => show win0_2.index t (1 : Fin 2) * 128 + 1 * k.val = k.val; omega
  · show V c main_v24 (((cfg0.win 3).blk t).view.emb (ix2 k q)) = _
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  · show V c main_v25 (((cfg0.win 4).blk t).view.emb (ix2 k q)) = _
    refine congrArg _ (funext fun a => Fin.ext ?_)
    match a with
    | ⟨0, _⟩ => show win0_4.index t (0 : Fin 2) * 128 + 1 * k.val = k.val; omega
    | ⟨1, _⟩ => show win0_4.index t (1 : Fin 2) * 128 + 1 * q.val = q.val; omega
  · show V c main_arg14 (((cfg0.win 5).blk t).view.emb (ix1 q)) = _
    refine congrArg _ (funext fun a => Fin.ext ?_)
    match a with
    | ⟨0, _⟩ => show win0_5.index t (0 : Fin 1) * 128 + 1 * q.val = q.val; omega
  · show G V c _ = G V c (((cfg0.win 6).blk t).view.emb (ix2 p q))
    refine congrArg _ (funext fun a => Fin.ext ?_)
    match a with
    | ⟨0, _⟩ => show t.val * 5000 + p.val = win0_6.index t (0 : Fin 2) * 5000 + 1 * p.val; omega
    | ⟨1, _⟩ => show q.val = win0_6.index t (1 : Fin 2) * 128 + 1 * q.val; omega

/-- An index of the array is in tile t's block iff each coordinate is in the block's range on its axis. -/
theorem mem_blk (t : Fin cfg0.N) (i : S20000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v26).slice (win0_6.rect t)).set ↔ _
  rw [View.set_slice_whole, Rect.mem_set_unit]
  exact Iff.rfl

/-- Every index of the array is in some tile's block: row r in tile r / 5000. -/
theorem cover (i : S20000x128.Idx) :
    ∃ t : Fin cfg0.N, (cfg0.win 6).flush t = true ∧ i ∈ ((cfg0.win 6).blk t).view.set := by
  have hi0 : (i 0).val < 20000 := (i 0).isLt
  have hi1 : (i 1).val < 128 := (i 1).isLt
  obtain ⟨t, ht⟩ := idx_onto ⟨(i 0).val / 5000, by omega⟩
  have ht' : t.val = (i 0).val / 5000 := ht
  obtain ⟨e00, e01, e10, e11, e20, e21, e30, e31, e40, e41, e50, e60, e61⟩ := idx_facts t
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- THE OUTPUT ARRAY after the region: the stage function of the arrays it was entered with. -/
theorem final (c : Dev nD) : (dat0 (F := Ideal) V c).arrAt 6 cfg0.N = G V c :=
  (dat0 (F := Ideal) V c).arrAt_eq_of_cover 6 (G V c) (fun t _ => flushed_eq V c t) (cover)

end Cert.KernelIdeal.Region0

end
-- ==== Proof.KRegion1.lean ====
/-
  What dense stage 1 of the kernel program leaves in its output array.

  The stage is a row-tiled pipeline over 20 tiles of 5000 rows: tile t fetches rows 5000 t … 5000 t + 4999 of the
  summed neighbour features, of the neighbour counts and of the nodes' own features, and the two whole weight matrices
  and the whole bias; it writes back rows 5000 t … 5000 t + 4999 of the result.  Entry (p, q) of what tile t writes is
  the stage's formula on row p of the tile's blocks, which is row 5000 t + p of the whole arrays; the 20 tiles cover
  all 100000 rows (row r lies in tile r / 5000).  So the output array ends as the whole-array stage function
  (`Cert.Lib.sageRelu`) of the six arrays the stage was entered with, whatever those are.
-/
import proofs.«135056_j88682484727898_2_alg».proof.Proof.Gen.KernelIdeal.Frame
import proofs.«135056_j88682484727898_2_alg».proof.Proof.KTile
import proofs.«135056_j88682484727898_2_alg».proof.Proof.LibSageSpec
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The stage function of the arrays the region is entered with. -/
abbrev G (c : Dev nD) : S100000x128.Idx → EReal :=
  Cert.Lib.sageRelu (V c main_v41) (V c main_v50) (V c main_arg0) (V c main_v51) (V c main_v52) (V c main_arg15)

/-- The printed index maps over the grid: the three row-blocked inputs move with the output, tile t at row block t;
    the weights and the bias stay at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Every row block is some tile's. -/
theorem idx_onto : ∀ (q0 : Fin 20), ∃ t : Fin cfg1.N, t.val = q0.val :=
  (by decide +kernel : ∀ (q0 : Fin 20), ∃ t : Fin grid1.N, t.val = q0.val)

theorem t_lt (t : Fin cfg1.N) : t.val < 20 := by
  have h := t.isLt
  have hN : cfg1.N = 20 := N_1
  omega

/-- The formula on a tile's blocks is the whole-array stage function on the tile's rows: stated over variables. -/
theorem tile_eq (agg : S100000x128.Idx → EReal) (cnt : S100000x1.Idx → EReal) (x : S100000x128.Idx → EReal)
    (wn wr : S128x128.Idx → EReal) (b : S128.Idx → EReal)
    (x0 : Vec Ideal S5000x128 .f32) (x1 : Vec Ideal S5000x1 .f32) (x2 : Vec Ideal S5000x128 .f32)
    (x3 x4 : Vec Ideal S128x128 .bf16) (x5 : Vec Ideal S128 .f32) (T : ℕ) (hT : T < 20)
    (h0 : ∀ (p : Fin 5000) (k : Fin 128), x0 (ix2 p k) = agg (ix2 (⟨T * 5000 + p.val, by have := p.isLt; omega⟩ : Fin 100000) k))
    (h1 : ∀ (p : Fin 5000), x1 (ix2 p (0 : Fin 1)) = cnt (ix2 (⟨T * 5000 + p.val, by have := p.isLt; omega⟩ : Fin 100000) (0 : Fin 1)))
    (h2 : ∀ (p : Fin 5000) (k : Fin 128), x2 (ix2 p k) = x (ix2 (⟨T * 5000 + p.val, by have := p.isLt; omega⟩ : Fin 100000) k))
    (h3 : ∀ (k q : Fin 128), x3 (ix2 k q) = wn (ix2 k q)) (h4 : ∀ (k q : Fin 128), x4 (ix2 k q) = wr (ix2 k q))
    (h5 : ∀ q : Fin 128, x5 (ix1 q) = b (ix1 q)) (p : Fin 5000) (q : Fin 128) :
    k1_pay1 (F := Ideal) x1 x0 x2 x3 x4 x5 (ix2 p q)
      = Cert.Lib.sageRelu agg cnt x wn wr b (ix2 (⟨T * 5000 + p.val, by have := p.isLt; omega⟩ : Fin 100000) q) := by
  refine (Cert.KernelIdeal.Tile.pay1_apply x1 x0 x2 x3 x4 x5 p q).trans ?_
  rw [Cert.Lib.sageRelu_apply]
  unfold Cert.Lib.sageAt
  simp only [h0, h1, h2, h3, h4, h5]

/-- WHAT TILE t WRITES BACK is block t of the stage function of the entry arrays. -/
theorem flushed_eq (c : Dev nD) (t : Fin cfg1.N) :
    (dat1 (F := Ideal) V c).flushed 6 t = ((cfg1.win 6).blk t).view.read (Elt Ideal) (G V c) := by
  show (cfg1.win 6).cut (grid1.coords t) ((dat1 (F := Ideal) V c).after 6 t) = _
  rw [after1_6]
  unfold out1_6
  rw [View.canon_unit_zero hz2]
  simp only [View.ld_unit_zero (S := S5000x128) hz2, View.ld_unit_zero (S := S5000x1) hz2,
    View.ld_unit_zero (S := S128x128) hz2, View.ld_unit_zero (S := S128) hz1]
  obtain ⟨e00, e01, e10, e11, e20, e21, e30, e31, e40, e41, e50, e60, e61⟩ := idx_facts t
  have hT := t_lt t
  funext j
  obtain ⟨p, q, rfl⟩ : ∃ (p : Fin 5000) (q : Fin 128), j = ix2 p q := ⟨j 0, j 1, eq_ix2 j⟩
  have hp := p.isLt
  have hq := q.isLt
  refine (tile_eq (V c main_v41) (V c main_v50) (V c main_arg0) (V c main_v51) (V c main_v52) (V c main_arg15)
    (iblk1 V c 0 t) (iblk1 V c 1 t) (iblk1 V c 2 t) (iblk1 V c 3 t) (iblk1 V c 4 t) (iblk1 V c 5 t) t.val hT
    (fun p k => ?_) (fun p => ?_) (fun p k => ?_) (fun k q => ?_) (fun k q => ?_) (fun q => ?_) p q).trans ?_
  · show V c main_v41 (((cfg1.win 0).blk t).view.emb (ix2 p k)) = _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · show V c main_v50 (((cfg1.win 1).blk t).view.emb (ix2 p (0 : Fin 1))) = _
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * 0 = 0; omega
  · show V c main_arg0 (((cfg1.win 2).blk t).view.emb (ix2 p k)) = _
    refine congrArg _ (funext fun a => Fin.ext ?_)
    match a with
    | ⟨0, _⟩ => show win1_2.index t (0 : Fin 2) * 5000 + 1 * p.val = t.val * 5000 + p.val; omega
    | ⟨1, _⟩ => show win1_2.index t (1 : Fin 2) * 128 + 1 * k.val = k.val; omega
  · show V c main_v51 (((cfg1.win 3).blk t).view.emb (ix2 k q)) = _
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  · show V c main_v52 (((cfg1.win 4).blk t).view.emb (ix2 k q)) = _
    refine congrArg _ (funext fun a => Fin.ext ?_)
    match a with
    | ⟨0, _⟩ => show win1_4.index t (0 : Fin 2) * 128 + 1 * k.val = k.val; omega
    | ⟨1, _⟩ => show win1_4.index t (1 : Fin 2) * 128 + 1 * q.val = q.val; omega
  · show V c main_arg15 (((cfg1.win 5).blk t).view.emb (ix1 q)) = _
    refine congrArg _ (funext fun a => Fin.ext ?_)
    match a with
    | ⟨0, _⟩ => show win1_5.index t (0 : Fin 1) * 128 + 1 * q.val = q.val; omega
  · show G V c _ = G V c (((cfg1.win 6).blk t).view.emb (ix2 p q))
    refine congrArg _ (funext fun a => Fin.ext ?_)
    match a with
    | ⟨0, _⟩ => show t.val * 5000 + p.val = win1_6.index t (0 : Fin 2) * 5000 + 1 * p.val; omega
    | ⟨1, _⟩ => show q.val = win1_6.index t (1 : Fin 2) * 128 + 1 * q.val; omega

/-- An index of the array is in tile t's block iff each coordinate is in the block's range on its axis. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v53).slice (win1_6.rect t)).set ↔ _
  rw [View.set_slice_whole, Rect.mem_set_unit]
  exact Iff.rfl

/-- Every index of the array is in some tile's block: row r in tile r / 5000. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := idx_onto ⟨(i 0).val / 5000, by omega⟩
  have ht' : t.val = (i 0).val / 5000 := ht
  obtain ⟨e00, e01, e10, e11, e20, e21, e30, e31, e40, e41, e50, e60, e61⟩ := idx_facts t
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- THE OUTPUT ARRAY after the region: the stage function of the arrays it was entered with. -/
theorem final (c : Dev nD) : (dat1 (F := Ideal) V c).arrAt 6 cfg1.N = G V c :=
  (dat1 (F := Ideal) V c).arrAt_eq_of_cover 6 (G V c) (fun t _ => flushed_eq V c t) (cover)

end Cert.KernelIdeal.Region1

end
-- ==== Proof.KRegion2.lean ====
/-
  What dense stage 2 of the kernel program leaves in its output array.

  The stage is a row-tiled pipeline over 4 tiles of 5000 rows: tile t fetches rows 5000 t … 5000 t + 4999 of the
  summed neighbour features, of the neighbour counts and of the nodes' own features, and the two whole weight matrices
  and the whole bias; it writes back rows 5000 t … 5000 t + 4999 of the result.  Entry (p, q) of what tile t writes is
  the stage's formula on row p of the tile's blocks, which is row 5000 t + p of the whole arrays; the 4 tiles cover
  all 20000 rows (row r lies in tile r / 5000).  So the output array ends as the whole-array stage function
  (`Cert.Lib.sageLin`) of the six arrays the stage was entered with, whatever those are.
-/
import proofs.«135056_j88682484727898_2_alg».proof.Proof.Gen.KernelIdeal.Frame
import proofs.«135056_j88682484727898_2_alg».proof.Proof.KTile
import proofs.«135056_j88682484727898_2_alg».proof.Proof.LibSageSpec
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The stage function of the arrays the region is entered with. -/
abbrev G (c : Dev nD) : S20000x128.Idx → EReal :=
  Cert.Lib.sageLin (V c main_v69) (V c main_v78) (V c main_v26) (V c main_v79) (V c main_v80) (V c main_arg16)

/-- The printed index maps over the grid: the three row-blocked inputs move with the output, tile t at row block t;
    the weights and the bias stay at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- Every row block is some tile's. -/
theorem idx_onto : ∀ (q0 : Fin 4), ∃ t : Fin cfg2.N, t.val = q0.val :=
  (by decide +kernel : ∀ (q0 : Fin 4), ∃ t : Fin grid2.N, t.val = q0.val)

theorem t_lt (t : Fin cfg2.N) : t.val < 4 := by
  have h := t.isLt
  have hN : cfg2.N = 4 := N_2
  omega

/-- The formula on a tile's blocks is the whole-array stage function on the tile's rows: stated over variables. -/
theorem tile_eq (agg : S20000x128.Idx → EReal) (cnt : S20000x1.Idx → EReal) (x : S20000x128.Idx → EReal)
    (wn wr : S128x128.Idx → EReal) (b : S128.Idx → EReal)
    (x0 : Vec Ideal S5000x128 .f32) (x1 : Vec Ideal S5000x1 .f32) (x2 : Vec Ideal S5000x128 .bf16)
    (x3 x4 : Vec Ideal S128x128 .bf16) (x5 : Vec Ideal S128 .f32) (T : ℕ) (hT : T < 4)
    (h0 : ∀ (p : Fin 5000) (k : Fin 128), x0 (ix2 p k) = agg (ix2 (⟨T * 5000 + p.val, by have := p.isLt; omega⟩ : Fin 20000) k))
    (h1 : ∀ (p : Fin 5000), x1 (ix2 p (0 : Fin 1)) = cnt (ix2 (⟨T * 5000 + p.val, by have := p.isLt; omega⟩ : Fin 20000) (0 : Fin 1)))
    (h2 : ∀ (p : Fin 5000) (k : Fin 128), x2 (ix2 p k) = x (ix2 (⟨T * 5000 + p.val, by have := p.isLt; omega⟩ : Fin 20000) k))
    (h3 : ∀ (k q : Fin 128), x3 (ix2 k q) = wn (ix2 k q)) (h4 : ∀ (k q : Fin 128), x4 (ix2 k q) = wr (ix2 k q))
    (h5 : ∀ q : Fin 128, x5 (ix1 q) = b (ix1 q)) (p : Fin 5000) (q : Fin 128) :
    k2_pay1 (F := Ideal) x1 x0 x2 x3 x4 x5 (ix2 p q)
      = Cert.Lib.sageLin agg cnt x wn wr b (ix2 (⟨T * 5000 + p.val, by have := p.isLt; omega⟩ : Fin 20000) q) := by
  refine (Cert.KernelIdeal.Tile.pay2_apply x1 x0 x2 x3 x4 x5 p q).trans ?_
  rw [Cert.Lib.sageLin_apply]
  unfold Cert.Lib.sageAt
  simp only [h0, h1, h2, h3, h4, h5]

/-- WHAT TILE t WRITES BACK is block t of the stage function of the entry arrays. -/
theorem flushed_eq (c : Dev nD) (t : Fin cfg2.N) :
    (dat2 (F := Ideal) V c).flushed 6 t = ((cfg2.win 6).blk t).view.read (Elt Ideal) (G V c) := by
  show (cfg2.win 6).cut (grid2.coords t) ((dat2 (F := Ideal) V c).after 6 t) = _
  rw [after2_6]
  unfold out2_6
  rw [View.canon_unit_zero hz2]
  simp only [View.ld_unit_zero (S := S5000x128) hz2, View.ld_unit_zero (S := S5000x1) hz2,
    View.ld_unit_zero (S := S128x128) hz2, View.ld_unit_zero (S := S128) hz1]
  obtain ⟨e00, e01, e10, e11, e20, e21, e30, e31, e40, e41, e50, e60, e61⟩ := idx_facts t
  have hT := t_lt t
  funext j
  obtain ⟨p, q, rfl⟩ : ∃ (p : Fin 5000) (q : Fin 128), j = ix2 p q := ⟨j 0, j 1, eq_ix2 j⟩
  have hp := p.isLt
  have hq := q.isLt
  refine (tile_eq (V c main_v69) (V c main_v78) (V c main_v26) (V c main_v79) (V c main_v80) (V c main_arg16)
    (iblk2 V c 0 t) (iblk2 V c 1 t) (iblk2 V c 2 t) (iblk2 V c 3 t) (iblk2 V c 4 t) (iblk2 V c 5 t) t.val hT
    (fun p k => ?_) (fun p => ?_) (fun p k => ?_) (fun k q => ?_) (fun k q => ?_) (fun q => ?_) p q).trans ?_
  · show V c main_v69 (((cfg2.win 0).blk t).view.emb (ix2 p k)) = _
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  · show V c main_v78 (((cfg2.win 1).blk t).view.emb (ix2 p (0 : Fin 1))) = _
    refine congrArg _ (funext fun a => Fin.ext ?_)
    match a with
    | ⟨0, _⟩ => show win2_1.index t (0 : Fin 2) * 5000 + 1 * p.val = t.val * 5000 + p.val; omega
    | ⟨1, _⟩ => show win2_1.index t (1 : Fin 2) * 1 + 1 * 0 = 0; omega
  · show V c main_v26 (((cfg2.win 2).blk t).view.emb (ix2 p k)) = _
    refine congrArg _ (funext fun a => Fin.ext ?_)
    match a with
    | ⟨0, _⟩ => show win2_2.index t (0 : Fin 2) * 5000 + 1 * p.val = t.val * 5000 + p.val; omega
    | ⟨1, _⟩ => show win2_2.index t (1 : Fin 2) * 128 + 1 * k.val = k.val; omega
  · show V c main_v79 (((cfg2.win 3).blk t).view.emb (ix2 k q)) = _
    refine congrArg _ (funext fun a => Fin.ext ?_)
    match a with
    | ⟨0, _⟩ => show win2_3.index t (0 : Fin 2) * 128 + 1 * k.val = k.val; omega
    | ⟨1, _⟩ => show win2_3.index t (1 : Fin 2) * 128 + 1 * q.val = q.val; omega
  · show V c main_v80 (((cfg2.win 4).blk t).view.emb (ix2 k q)) = _
    refine congrArg _ (funext fun a => Fin.ext ?_)
    match a with
    | ⟨0, _⟩ => show win2_4.index t (0 : Fin 2) * 128 + 1 * k.val = k.val; omega
    | ⟨1, _⟩ => show win2_4.index t (1 : Fin 2) * 128 + 1 * q.val = q.val; omega
  · show V c main_arg16 (((cfg2.win 5).blk t).view.emb (ix1 q)) = _
    refine congrArg _ (funext fun a => Fin.ext ?_)
    match a with
    | ⟨0, _⟩ => show win2_5.index t (0 : Fin 1) * 128 + 1 * q.val = q.val; omega
  · show G V c _ = G V c (((cfg2.win 6).blk t).view.emb (ix2 p q))
    refine congrArg _ (funext fun a => Fin.ext ?_)
    match a with
    | ⟨0, _⟩ => show t.val * 5000 + p.val = win2_6.index t (0 : Fin 2) * 5000 + 1 * p.val; omega
    | ⟨1, _⟩ => show q.val = win2_6.index t (1 : Fin 2) * 128 + 1 * q.val; omega

/-- An index of the array is in tile t's block iff each coordinate is in the block's range on its axis. -/
theorem mem_blk (t : Fin cfg2.N) (i : S20000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v81).slice (win2_6.rect t)).set ↔ _
  rw [View.set_slice_whole, Rect.mem_set_unit]
  exact Iff.rfl

/-- Every index of the array is in some tile's block: row r in tile r / 5000. -/
theorem cover (i : S20000x128.Idx) :
    ∃ t : Fin cfg2.N, (cfg2.win 6).flush t = true ∧ i ∈ ((cfg2.win 6).blk t).view.set := by
  have hi0 : (i 0).val < 20000 := (i 0).isLt
  have hi1 : (i 1).val < 128 := (i 1).isLt
  obtain ⟨t, ht⟩ := idx_onto ⟨(i 0).val / 5000, by omega⟩
  have ht' : t.val = (i 0).val / 5000 := ht
  obtain ⟨e00, e01, e10, e11, e20, e21, e30, e31, e40, e41, e50, e60, e61⟩ := idx_facts t
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- THE OUTPUT ARRAY after the region: the stage function of the arrays it was entered with. -/
theorem final (c : Dev nD) : (dat2 (F := Ideal) V c).arrAt 6 cfg2.N = G V c :=
  (dat2 (F := Ideal) V c).arrAt_eq_of_cover 6 (G V c) (fun t _ => flushed_eq V c t) (cover)

end Cert.KernelIdeal.Region2

end
-- ==== Proof.KRegion3.lean ====
/-
  What dense stage 3 of the kernel program leaves in its output array.

  The stage is a row-tiled pipeline over 20 tiles of 5000 rows: tile t fetches rows 5000 t … 5000 t + 4999 of the
  summed neighbour features, of the neighbour counts and of the nodes' own features, and the two whole weight matrices
  and the whole bias; it writes back rows 5000 t … 5000 t + 4999 of the result.  Entry (p, q) of what tile t writes is
  the stage's formula on row p of the tile's blocks, which is row 5000 t + p of the whole arrays; the 20 tiles cover
  all 100000 rows (row r lies in tile r / 5000).  So the output array ends as the whole-array stage function
  (`Cert.Lib.sageLin`) of the six arrays the stage was entered with, whatever those are.
-/
import proofs.«135056_j88682484727898_2_alg».proof.Proof.Gen.KernelIdeal.Frame
import proofs.«135056_j88682484727898_2_alg».proof.Proof.KTile
import proofs.«135056_j88682484727898_2_alg».proof.Proof.LibSageSpec
import Idealize.ShloMosaic.Lib.Pipeline.Value
import Idealize.ShloMosaic.Lib.ValueIdx

set_option maxRecDepth 16384

noncomputable section

namespace Cert.KernelIdeal.Region3

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The stage function of the arrays the region is entered with. -/
abbrev G (c : Dev nD) : S100000x128.Idx → EReal :=
  Cert.Lib.sageLin (V c main_v97) (V c main_v106) (V c main_v53) (V c main_v107) (V c main_v108) (V c main_arg17)

/-- The printed index maps over the grid: the three row-blocked inputs move with the output, tile t at row block t;
    the weights and the bias stay at block 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 1) = 0
    ∧ win3_6.index t (0 : Fin 2) = t.val ∧ win3_6.index t (1 : Fin 2) = 0 :=
  (by decide +kernel : ∀ t : Fin grid3.N, _)

/-- Every row block is some tile's. -/
theorem idx_onto : ∀ (q0 : Fin 20), ∃ t : Fin cfg3.N, t.val = q0.val :=
  (by decide +kernel : ∀ (q0 : Fin 20), ∃ t : Fin grid3.N, t.val = q0.val)

theorem t_lt (t : Fin cfg3.N) : t.val < 20 := by
  have h := t.isLt
  have hN : cfg3.N = 20 := N_3
  omega

/-- The formula on a tile's blocks is the whole-array stage function on the tile's rows: stated over variables. -/
theorem tile_eq (agg : S100000x128.Idx → EReal) (cnt : S100000x1.Idx → EReal) (x : S100000x128.Idx → EReal)
    (wn wr : S128x128.Idx → EReal) (b : S128.Idx → EReal)
    (x0 : Vec Ideal S5000x128 .f32) (x1 : Vec Ideal S5000x1 .f32) (x2 : Vec Ideal S5000x128 .bf16)
    (x3 x4 : Vec Ideal S128x128 .bf16) (x5 : Vec Ideal S128 .f32) (T : ℕ) (hT : T < 20)
    (h0 : ∀ (p : Fin 5000) (k : Fin 128), x0 (ix2 p k) = agg (ix2 (⟨T * 5000 + p.val, by have := p.isLt; omega⟩ : Fin 100000) k))
    (h1 : ∀ (p : Fin 5000), x1 (ix2 p (0 : Fin 1)) = cnt (ix2 (⟨T * 5000 + p.val, by have := p.isLt; omega⟩ : Fin 100000) (0 : Fin 1)))
    (h2 : ∀ (p : Fin 5000) (k : Fin 128), x2 (ix2 p k) = x (ix2 (⟨T * 5000 + p.val, by have := p.isLt; omega⟩ : Fin 100000) k))
    (h3 : ∀ (k q : Fin 128), x3 (ix2 k q) = wn (ix2 k q)) (h4 : ∀ (k q : Fin 128), x4 (ix2 k q) = wr (ix2 k q))
    (h5 : ∀ q : Fin 128, x5 (ix1 q) = b (ix1 q)) (p : Fin 5000) (q : Fin 128) :
    k3_pay1 (F := Ideal) x1 x0 x2 x3 x4 x5 (ix2 p q)
      = Cert.Lib.sageLin agg cnt x wn wr b (ix2 (⟨T * 5000 + p.val, by have := p.isLt; omega⟩ : Fin 100000) q) := by
  refine (Cert.KernelIdeal.Tile.pay3_apply x1 x0 x2 x3 x4 x5 p q).trans ?_
  rw [Cert.Lib.sageLin_apply]
  unfold Cert.Lib.sageAt
  simp only [h0, h1, h2, h3, h4, h5]

/-- WHAT TILE t WRITES BACK is block t of the stage function of the entry arrays. -/
theorem flushed_eq (c : Dev nD) (t : Fin cfg3.N) :
    (dat3 (F := Ideal) V c).flushed 6 t = ((cfg3.win 6).blk t).view.read (Elt Ideal) (G V c) := by
  show (cfg3.win 6).cut (grid3.coords t) ((dat3 (F := Ideal) V c).after 6 t) = _
  rw [after3_6]
  unfold out3_6
  rw [View.canon_unit_zero hz2]
  simp only [View.ld_unit_zero (S := S5000x128) hz2, View.ld_unit_zero (S := S5000x1) hz2,
    View.ld_unit_zero (S := S128x128) hz2, View.ld_unit_zero (S := S128) hz1]
  obtain ⟨e00, e01, e10, e11, e20, e21, e30, e31, e40, e41, e50, e60, e61⟩ := idx_facts t
  have hT := t_lt t
  funext j
  obtain ⟨p, q, rfl⟩ : ∃ (p : Fin 5000) (q : Fin 128), j = ix2 p q := ⟨j 0, j 1, eq_ix2 j⟩
  have hp := p.isLt
  have hq := q.isLt
  refine (tile_eq (V c main_v97) (V c main_v106) (V c main_v53) (V c main_v107) (V c main_v108) (V c main_arg17)
    (iblk3 V c 0 t) (iblk3 V c 1 t) (iblk3 V c 2 t) (iblk3 V c 3 t) (iblk3 V c 4 t) (iblk3 V c 5 t) t.val hT
    (fun p k => ?_) (fun p => ?_) (fun p k => ?_) (fun k q => ?_) (fun k q => ?_) (fun q => ?_) p q).trans ?_
  · show V c main_v97 (((cfg3.win 0).blk t).view.emb (ix2 p k)) = _
    refine congrArg _ (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * k.val = k.val; omega
  · show V c main_v106 (((cfg3.win 1).blk t).view.emb (ix2 p (0 : Fin 1))) = _
    refine congrArg _ (funext fun a => Fin.ext ?_)
    match a with
    | ⟨0, _⟩ => show win3_1.index t (0 : Fin 2) * 5000 + 1 * p.val = t.val * 5000 + p.val; omega
    | ⟨1, _⟩ => show win3_1.index t (1 : Fin 2) * 1 + 1 * 0 = 0; omega
  · show V c main_v53 (((cfg3.win 2).blk t).view.emb (ix2 p k)) = _
    refine congrArg _ (funext fun a => Fin.ext ?_)
    match a with
    | ⟨0, _⟩ => show win3_2.index t (0 : Fin 2) * 5000 + 1 * p.val = t.val * 5000 + p.val; omega
    | ⟨1, _⟩ => show win3_2.index t (1 : Fin 2) * 128 + 1 * k.val = k.val; omega
  · show V c main_v107 (((cfg3.win 3).blk t).view.emb (ix2 k q)) = _
    refine congrArg _ (funext fun a => Fin.ext ?_)
    match a with
    | ⟨0, _⟩ => show win3_3.index t (0 : Fin 2) * 128 + 1 * k.val = k.val; omega
    | ⟨1, _⟩ => show win3_3.index t (1 : Fin 2) * 128 + 1 * q.val = q.val; omega
  · show V c main_v108 (((cfg3.win 4).blk t).view.emb (ix2 k q)) = _
    refine congrArg _ (funext fun a => Fin.ext ?_)
    match a with
    | ⟨0, _⟩ => show win3_4.index t (0 : Fin 2) * 128 + 1 * k.val = k.val; omega
    | ⟨1, _⟩ => show win3_4.index t (1 : Fin 2) * 128 + 1 * q.val = q.val; omega
  · show V c main_arg17 (((cfg3.win 5).blk t).view.emb (ix1 q)) = _
    refine congrArg _ (funext fun a => Fin.ext ?_)
    match a with
    | ⟨0, _⟩ => show win3_5.index t (0 : Fin 1) * 128 + 1 * q.val = q.val; omega
  · show G V c _ = G V c (((cfg3.win 6).blk t).view.emb (ix2 p q))
    refine congrArg _ (funext fun a => Fin.ext ?_)
    match a with
    | ⟨0, _⟩ => show t.val * 5000 + p.val = win3_6.index t (0 : Fin 2) * 5000 + 1 * p.val; omega
    | ⟨1, _⟩ => show q.val = win3_6.index t (1 : Fin 2) * 128 + 1 * q.val; omega

/-- An index of the array is in tile t's block iff each coordinate is in the block's range on its axis. -/
theorem mem_blk (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v109).slice (win3_6.rect t)).set ↔ _
  rw [View.set_slice_whole, Rect.mem_set_unit]
  exact Iff.rfl

/-- Every index of the array is in some tile's block: row r in tile r / 5000. -/
theorem cover (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  obtain ⟨t, ht⟩ := idx_onto ⟨(i 0).val / 5000, by omega⟩
  have ht' : t.val = (i 0).val / 5000 := ht
  obtain ⟨e00, e01, e10, e11, e20, e21, e30, e31, e40, e41, e50, e60, e61⟩ := idx_facts t
  refine ⟨t, flush3_6 t, ?_⟩
  rw [mem_blk]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega

/-- THE OUTPUT ARRAY after the region: the stage function of the arrays it was entered with. -/
theorem final (c : Dev nD) : (dat3 (F := Ideal) V c).arrAt 6 cfg3.N = G V c :=
  (dat3 (F := Ideal) V c).arrAt_eq_of_cover 6 (G V c) (fun t _ => flushed_eq V c t) (cover)

end Cert.KernelIdeal.Region3

end
-- ==== Proof.KValue.lean ====
/-
  The kernel program's result as a function of its arguments.

  Walking the nine segments from the launch memory: no segment writes an argument buffer (a host stretch writes only
  its own results; a dense stage writes only its output array), so every boundary's contents agree with the launch
  memory on the arguments.  Stage 0 is entered with the first layer's movie-side aggregation and count and leaves the
  first-layer movie features; stage 1 likewise leaves the first-layer user features; stages 2 and 3 are entered with
  aggregations of those and leave the second-layer features; the last stretch decodes.  With every edge endpoint
  non-negative the index wrap in front of each scatter is the identity, and the result is `Fns.net` of the arguments.
-/
import proofs.«135056_j88682484727898_2_alg».proof.Proof.Gen.KernelIdeal.Frame
import proofs.«135056_j88682484727898_2_alg».proof.Proof.KStretch
import proofs.«135056_j88682484727898_2_alg».proof.Proof.KRegion0
import proofs.«135056_j88682484727898_2_alg».proof.Proof.KRegion1
import proofs.«135056_j88682484727898_2_alg».proof.Proof.KRegion2
import proofs.«135056_j88682484727898_2_alg».proof.Proof.KRegion3

set_option maxRecDepth 16384

noncomputable section

namespace Cert.KernelIdeal.Value

open Cert.KernelIdeal Cert.KernelIdeal.Gen Cert.KernelIdeal.Fns Cert.KernelIdeal.Stretch
open Idealize.ShloMosaic Idealize.ShloMosaic.TcCoe Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg) (c : Dev nD)

/-- The eighteen argument buffers. -/
abbrev Args : List (Ref sig .tc) := [main_arg0, main_arg1, main_arg2, main_arg3, main_arg4, main_arg5, main_arg6, main_arg7, main_arg8, main_arg9, main_arg10, main_arg11, main_arg12, main_arg13, main_arg14, main_arg15, main_arg16, main_arg17]

/-! ## No segment writes an argument -/

theorem notW0 : ∀ r ∈ Args, r ∉ (written0 : List (Ref sig .tc)) := by decide
theorem notW1 : ∀ r ∈ Args, r ∉ (written1 : List (Ref sig .tc)) := by decide
theorem notW2 : ∀ r ∈ Args, r ∉ (written2 : List (Ref sig .tc)) := by decide
theorem notW3 : ∀ r ∈ Args, r ∉ (written3 : List (Ref sig .tc)) := by decide
theorem notA0 : ∀ r ∈ Args, r ≠ main_arg1 → r ≠ main_arg14 → ∀ w, Pipeline.arrRef spec0 w ≠ r := by decide
theorem notA1 : ∀ r ∈ Args, r ≠ main_arg0 → r ≠ main_arg15 → ∀ w, Pipeline.arrRef spec1 w ≠ r := by decide
theorem notA2 : ∀ r ∈ Args, r ≠ main_arg16 → ∀ w, Pipeline.arrRef spec2 w ≠ r := by decide
theorem notA3 : ∀ r ∈ Args, r ≠ main_arg17 → ∀ w, Pipeline.arrRef spec3 w ≠ r := by decide

/-- An input window's array leaves each stage as it entered. -/
theorem in0 (w : Fin cfg0.W) (h : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w h _).trans (A_eq0 (V1 m ρ) c w))
theorem in1 (w : Fin cfg1.W) (h : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w h _).trans (A_eq1 (V3 m ρ) c w))
theorem in2 (w : Fin cfg2.W) (h : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w h _).trans (A_eq2 (V5 m ρ) c w))
theorem in3 (w : Fin cfg3.W) (h : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w h _).trans (A_eq3 (V7 m ρ) c w))

theorem L1 (r : Ref sig .tc) (hr : r ∈ Args) : W1 m ρ c (Proc.devRef .tc r) = W0 m ρ c (Proc.devRef .tc r) :=
  s0_keeps _ r (notW0 r hr)
theorem L2 (r : Ref sig .tc) (hr : r ∈ Args) : W2 m ρ c (Proc.devRef .tc r) = W0 m ρ c (Proc.devRef .tc r) := by
  refine Eq.trans ?_ (L1 m ρ c r hr)
  by_cases h1 : r = main_arg1
  · subst h1; exact in0 m ρ c 2 rfl
  by_cases h2 : r = main_arg14
  · subst h2; exact in0 m ρ c 5 rfl
  exact W2_of_ne m ρ c r (notA0 r hr h1 h2)
theorem L3 (r : Ref sig .tc) (hr : r ∈ Args) : W3 m ρ c (Proc.devRef .tc r) = W0 m ρ c (Proc.devRef .tc r) :=
  (s1_keeps _ r (notW1 r hr)).trans (L2 m ρ c r hr)
theorem L4 (r : Ref sig .tc) (hr : r ∈ Args) : W4 m ρ c (Proc.devRef .tc r) = W0 m ρ c (Proc.devRef .tc r) := by
  refine Eq.trans ?_ (L3 m ρ c r hr)
  by_cases h1 : r = main_arg0
  · subst h1; exact in1 m ρ c 2 rfl
  by_cases h2 : r = main_arg15
  · subst h2; exact in1 m ρ c 5 rfl
  exact W4_of_ne m ρ c r (notA1 r hr h1 h2)
theorem L5 (r : Ref sig .tc) (hr : r ∈ Args) : W5 m ρ c (Proc.devRef .tc r) = W0 m ρ c (Proc.devRef .tc r) :=
  (s2_keeps _ r (notW2 r hr)).trans (L4 m ρ c r hr)
theorem L6 (r : Ref sig .tc) (hr : r ∈ Args) : W6 m ρ c (Proc.devRef .tc r) = W0 m ρ c (Proc.devRef .tc r) := by
  refine Eq.trans ?_ (L5 m ρ c r hr)
  by_cases h2 : r = main_arg16
  · subst h2; exact in2 m ρ c 5 rfl
  exact W6_of_ne m ρ c r (notA2 r hr h2)
theorem L7 (r : Ref sig .tc) (hr : r ∈ Args) : W7 m ρ c (Proc.devRef .tc r) = W0 m ρ c (Proc.devRef .tc r) :=
  (s3_keeps _ r (notW3 r hr)).trans (L6 m ρ c r hr)
theorem L8 (r : Ref sig .tc) (hr : r ∈ Args) : W8 m ρ c (Proc.devRef .tc r) = W0 m ρ c (Proc.devRef .tc r) := by
  refine Eq.trans ?_ (L7 m ρ c r hr)
  by_cases h2 : r = main_arg17
  · subst h2; exact in3 m ρ c 5 rfl
  exact W8_of_ne m ρ c r (notA3 r hr h2)

/-! ## The arguments, named -/

abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)
abbrev A8 := m ((c : Thread nD τ).loc main_arg8)
abbrev A9 := m ((c : Thread nD τ).loc main_arg9)
abbrev A10 := m ((c : Thread nD τ).loc main_arg10)
abbrev A11 := m ((c : Thread nD τ).loc main_arg11)
abbrev A12 := m ((c : Thread nD τ).loc main_arg12)
abbrev A13 := m ((c : Thread nD τ).loc main_arg13)
abbrev A14 := m ((c : Thread nD τ).loc main_arg14)
abbrev A15 := m ((c : Thread nD τ).loc main_arg15)
abbrev A16 := m ((c : Thread nD τ).loc main_arg16)
abbrev A17 := m ((c : Thread nD τ).loc main_arg17)

/-! ## Stage 0 leaves the first-layer movie features -/

theorem v26_at2 (hs : Cert.IndexDomain.NonNeg (A2 m c)) (hd : Cert.IndexDomain.NonNeg (A3 m c)) : W2 m ρ c (Proc.devRef .tc main_v26) = hM (A0 m c) (A1 m c) (A2 m c) (A3 m c) (A6 m c) (A7 m c) (A14 m c) := by
  have e0 : V1 m ρ c main_v14 = aggM (A0 m c) (wrap 100000#32 (A2 m c)) (wrap 20000#32 (A3 m c)) := s0_agg (W0 m ρ c)
  have e1 : V1 m ρ c main_v23 = cntM (wrap 20000#32 (A3 m c)) := s0_cnt (W0 m ρ c)
  have e2 : V1 m ρ c main_arg1 = A1 m c := L1 m ρ c main_arg1 (by decide)
  have e3 : V1 m ρ c main_v24 = A6 m c := s0_wn (W0 m ρ c)
  have e4 : V1 m ρ c main_v25 = A7 m c := s0_wr (W0 m ρ c)
  have e5 : V1 m ρ c main_arg14 = A14 m c := L1 m ρ c main_arg14 (by decide)
  refine (W2_arr m ρ c 6).trans ((Cert.KernelIdeal.Region0.final (V1 m ρ) c).trans ?_)
  show Cert.Lib.sageRelu (V1 m ρ c main_v14) (V1 m ρ c main_v23) (V1 m ρ c main_arg1) (V1 m ρ c main_v24) (V1 m ρ c main_v25) (V1 m ρ c main_arg14) = _
  rw [e0, e1, e2, e3, e4, e5, wrap_nonneg _ _ hs, wrap_nonneg _ _ hd]
  rfl
theorem v26_at3 : W3 m ρ c (Proc.devRef .tc main_v26) = W2 m ρ c (Proc.devRef .tc main_v26) := s1_keeps _ main_v26 (by decide)
theorem v26_at4 : W4 m ρ c (Proc.devRef .tc main_v26) = W3 m ρ c (Proc.devRef .tc main_v26) := W4_of_ne m ρ c main_v26 (by decide)
theorem v26_at5 : W5 m ρ c (Proc.devRef .tc main_v26) = W4 m ρ c (Proc.devRef .tc main_v26) := s2_keeps _ main_v26 (by decide)
theorem v26_at6 : W6 m ρ c (Proc.devRef .tc main_v26) = W5 m ρ c (Proc.devRef .tc main_v26) := in2 m ρ c 2 rfl

/-! ## Stage 1 leaves the first-layer user features -/

theorem v53_at4 (hs : Cert.IndexDomain.NonNeg (A2 m c)) (hd : Cert.IndexDomain.NonNeg (A3 m c)) : W4 m ρ c (Proc.devRef .tc main_v53) = hU (A0 m c) (A1 m c) (A2 m c) (A3 m c) (A8 m c) (A9 m c) (A15 m c) := by
  have e0 : V3 m ρ c main_v41 = aggU (W2 m ρ c (Proc.devRef .tc main_arg1)) (wrap 20000#32 (W2 m ρ c (Proc.devRef .tc main_arg3))) (wrap 100000#32 (W2 m ρ c (Proc.devRef .tc main_arg2))) := s1_agg (W2 m ρ c)
  have e1 : V3 m ρ c main_v50 = cntU (wrap 100000#32 (W2 m ρ c (Proc.devRef .tc main_arg2))) := s1_cnt (W2 m ρ c)
  have e2 : V3 m ρ c main_arg0 = A0 m c := L3 m ρ c main_arg0 (by decide)
  have e3 : V3 m ρ c main_v51 = W2 m ρ c (Proc.devRef .tc main_arg8) := s1_wn (W2 m ρ c)
  have e4 : V3 m ρ c main_v52 = W2 m ρ c (Proc.devRef .tc main_arg9) := s1_wr (W2 m ρ c)
  have e5 : V3 m ρ c main_arg15 = A15 m c := L3 m ρ c main_arg15 (by decide)
  have a1 : W2 m ρ c (Proc.devRef .tc main_arg1) = A1 m c := L2 m ρ c main_arg1 (by decide)
  have a2 : W2 m ρ c (Proc.devRef .tc main_arg2) = A2 m c := L2 m ρ c main_arg2 (by decide)
  have a3 : W2 m ρ c (Proc.devRef .tc main_arg3) = A3 m c := L2 m ρ c main_arg3 (by decide)
  have a8 : W2 m ρ c (Proc.devRef .tc main_arg8) = A8 m c := L2 m ρ c main_arg8 (by decide)
  have a9 : W2 m ρ c (Proc.devRef .tc main_arg9) = A9 m c := L2 m ρ c main_arg9 (by decide)
  refine (W4_arr m ρ c 6).trans ((Cert.KernelIdeal.Region1.final (V3 m ρ) c).trans ?_)
  show Cert.Lib.sageRelu (V3 m ρ c main_v41) (V3 m ρ c main_v50) (V3 m ρ c main_arg0) (V3 m ρ c main_v51) (V3 m ρ c main_v52) (V3 m ρ c main_arg15) = _
  rw [e0, e1, e2, e3, e4, e5, a1, a2, a3, a8, a9, wrap_nonneg _ _ hs, wrap_nonneg _ _ hd]
  rfl
theorem v53_at5 : W5 m ρ c (Proc.devRef .tc main_v53) = W4 m ρ c (Proc.devRef .tc main_v53) := s2_keeps _ main_v53 (by decide)
theorem v53_at6 : W6 m ρ c (Proc.devRef .tc main_v53) = W5 m ρ c (Proc.devRef .tc main_v53) := W6_of_ne m ρ c main_v53 (by decide)
theorem v53_at7 : W7 m ρ c (Proc.devRef .tc main_v53) = W6 m ρ c (Proc.devRef .tc main_v53) := s3_keeps _ main_v53 (by decide)

/-! ## Stage 2 leaves the second-layer movie features -/

theorem v81_at6 (hs : Cert.IndexDomain.NonNeg (A2 m c)) (hd : Cert.IndexDomain.NonNeg (A3 m c)) : W6 m ρ c (Proc.devRef .tc main_v81)
    = hM2 (A0 m c) (A1 m c) (A2 m c) (A3 m c) (A6 m c) (A7 m c) (A8 m c) (A9 m c) (A10 m c) (A11 m c) (A14 m c) (A15 m c) (A16 m c) := by
  have e0 : V5 m ρ c main_v69 = aggM (W4 m ρ c (Proc.devRef .tc main_v53)) (wrap 100000#32 (W4 m ρ c (Proc.devRef .tc main_arg2))) (wrap 20000#32 (W4 m ρ c (Proc.devRef .tc main_arg3))) := s2_agg (W4 m ρ c)
  have e1 : V5 m ρ c main_v78 = cntM (wrap 20000#32 (W4 m ρ c (Proc.devRef .tc main_arg3))) := s2_cnt (W4 m ρ c)
  have e2 : V5 m ρ c main_v26 = hM (A0 m c) (A1 m c) (A2 m c) (A3 m c) (A6 m c) (A7 m c) (A14 m c) :=
    (v26_at5 m ρ c).trans ((v26_at4 m ρ c).trans ((v26_at3 m ρ c).trans (v26_at2 m ρ c hs hd)))
  have e3 : V5 m ρ c main_v79 = W4 m ρ c (Proc.devRef .tc main_arg10) := s2_wn (W4 m ρ c)
  have e4 : V5 m ρ c main_v80 = W4 m ρ c (Proc.devRef .tc main_arg11) := s2_wr (W4 m ρ c)
  have e5 : V5 m ρ c main_arg16 = A16 m c := L5 m ρ c main_arg16 (by decide)
  have a2 : W4 m ρ c (Proc.devRef .tc main_arg2) = A2 m c := L4 m ρ c main_arg2 (by decide)
  have a3 : W4 m ρ c (Proc.devRef .tc main_arg3) = A3 m c := L4 m ρ c main_arg3 (by decide)
  have a10 : W4 m ρ c (Proc.devRef .tc main_arg10) = A10 m c := L4 m ρ c main_arg10 (by decide)
  have a11 : W4 m ρ c (Proc.devRef .tc main_arg11) = A11 m c := L4 m ρ c main_arg11 (by decide)
  refine (W6_arr m ρ c 6).trans ((Cert.KernelIdeal.Region2.final (V5 m ρ) c).trans ?_)
  show Cert.Lib.sageLin (V5 m ρ c main_v69) (V5 m ρ c main_v78) (V5 m ρ c main_v26) (V5 m ρ c main_v79) (V5 m ρ c main_v80) (V5 m ρ c main_arg16) = _
  rw [e0, e1, e2, e3, e4, e5, v53_at4 m ρ c hs hd, a2, a3, a10, a11, wrap_nonneg _ _ hs, wrap_nonneg _ _ hd]
  rfl
theorem v81_at7 : W7 m ρ c (Proc.devRef .tc main_v81) = W6 m ρ c (Proc.devRef .tc main_v81) := s3_keeps _ main_v81 (by decide)
theorem v81_at8 : W8 m ρ c (Proc.devRef .tc main_v81) = W7 m ρ c (Proc.devRef .tc main_v81) := W8_of_ne m ρ c main_v81 (by decide)

/-! ## Stage 3 leaves the second-layer user features -/

theorem v109_at8 (hs : Cert.IndexDomain.NonNeg (A2 m c)) (hd : Cert.IndexDomain.NonNeg (A3 m c)) : W8 m ρ c (Proc.devRef .tc main_v109)
    = hU2 (A0 m c) (A1 m c) (A2 m c) (A3 m c) (A6 m c) (A7 m c) (A8 m c) (A9 m c) (A12 m c) (A13 m c) (A14 m c) (A15 m c) (A17 m c) := by
  have e0 : V7 m ρ c main_v97 = aggU (W6 m ρ c (Proc.devRef .tc main_v26)) (wrap 20000#32 (W6 m ρ c (Proc.devRef .tc main_arg3))) (wrap 100000#32 (W6 m ρ c (Proc.devRef .tc main_arg2))) := s3_agg (W6 m ρ c)
  have e1 : V7 m ρ c main_v106 = cntU (wrap 100000#32 (W6 m ρ c (Proc.devRef .tc main_arg2))) := s3_cnt (W6 m ρ c)
  have e2 : V7 m ρ c main_v53 = hU (A0 m c) (A1 m c) (A2 m c) (A3 m c) (A8 m c) (A9 m c) (A15 m c) :=
    (v53_at7 m ρ c).trans ((v53_at6 m ρ c).trans ((v53_at5 m ρ c).trans (v53_at4 m ρ c hs hd)))
  have e3 : V7 m ρ c main_v107 = W6 m ρ c (Proc.devRef .tc main_arg12) := s3_wn (W6 m ρ c)
  have e4 : V7 m ρ c main_v108 = W6 m ρ c (Proc.devRef .tc main_arg13) := s3_wr (W6 m ρ c)
  have e5 : V7 m ρ c main_arg17 = A17 m c := L7 m ρ c main_arg17 (by decide)
  have b26 : W6 m ρ c (Proc.devRef .tc main_v26) = hM (A0 m c) (A1 m c) (A2 m c) (A3 m c) (A6 m c) (A7 m c) (A14 m c) :=
    (v26_at6 m ρ c).trans ((v26_at5 m ρ c).trans ((v26_at4 m ρ c).trans ((v26_at3 m ρ c).trans (v26_at2 m ρ c hs hd))))
  have a2 : W6 m ρ c (Proc.devRef .tc main_arg2) = A2 m c := L6 m ρ c main_arg2 (by decide)
  have a3 : W6 m ρ c (Proc.devRef .tc main_arg3) = A3 m c := L6 m ρ c main_arg3 (by decide)
  have a12 : W6 m ρ c (Proc.devRef .tc main_arg12) = A12 m c := L6 m ρ c main_arg12 (by decide)
  have a13 : W6 m ρ c (Proc.devRef .tc main_arg13) = A13 m c := L6 m ρ c main_arg13 (by decide)
  refine (W8_arr m ρ c 6).trans ((Cert.KernelIdeal.Region3.final (V7 m ρ) c).trans ?_)
  show Cert.Lib.sageLin (V7 m ρ c main_v97) (V7 m ρ c main_v106) (V7 m ρ c main_v53) (V7 m ρ c main_v107) (V7 m ρ c main_v108) (V7 m ρ c main_arg17) = _
  rw [e0, e1, e2, e3, e4, e5, b26, a2, a3, a12, a13, wrap_nonneg _ _ hs, wrap_nonneg _ _ hd]
  rfl

/-! ## The result -/

/-- The result buffer at the last boundary is the network function of the launch memory's arguments. -/
theorem result_eq (hs : Cert.IndexDomain.NonNeg (A2 m c)) (hd : Cert.IndexDomain.NonNeg (A3 m c)) : W9 m ρ c (Proc.devRef .tc main_v125)
    = net (A0 m c) (A1 m c) (A2 m c) (A3 m c) (A4 m c) (A5 m c) (A6 m c) (A7 m c) (A8 m c) (A9 m c) (A10 m c) (A11 m c) (A12 m c) (A13 m c)
        (A14 m c) (A15 m c) (A16 m c) (A17 m c) := by
  have a4 : W8 m ρ c (Proc.devRef .tc main_arg4) = A4 m c := L8 m ρ c main_arg4 (by decide)
  have a5 : W8 m ρ c (Proc.devRef .tc main_arg5) = A5 m c := L8 m ρ c main_arg5 (by decide)
  have b81 : W8 m ρ c (Proc.devRef .tc main_v81) = _ := (v81_at8 m ρ c).trans ((v81_at7 m ρ c).trans (v81_at6 m ρ c hs hd))
  refine (s4_out (W8 m ρ c)).trans ?_
  rw [v109_at8 m ρ c hs hd, b81, a4, a5]
  rfl

end Cert.KernelIdeal.Value

end
-- ==== Proof.RLayer.lean ====
/-
  The host program's dense stage of a mean-aggregating graph layer, as a whole array.

  The host divides the summed neighbour features [N, 128] by the counts column [N, 1] capped below by one (the scalar
  one repeated to a column, the capped column repeated across the 128 columns), multiplies that mean array and the
  nodes' own features each by a [128, 128] weight matrix with a plain product, adds the two products, and adds the bias
  [128] made a row and repeated down the N rows; for a hidden layer the maximum with the scalar zero repeated to
  [N, 128] follows. Entry by entry these are `Cert.Lib.sageLin` and `Cert.Lib.sageRelu`:

      (Σ_k (agg(p,k) / max(cnt(p,0), 1)) · wn(k,q)  +  Σ_k x(p,k) · wr(k,q))  +  b(q),   and its maximum with zero.

  Stated for the program's two node counts, N = 20000 and N = 100000.
-/
import proofs.«135056_j88682484727898_2_alg».proof.ReferenceIdeal
import proofs.«135056_j88682484727898_2_alg».proof.Proof.LibSageDense

noncomputable section

namespace Cert.ReferenceIdeal.Layer

open Idealize.ShloMosaic Idealize.ShloMosaic.ValueIdx Cert.ReferenceIdeal

variable [Cert.ReferenceIdeal.Facts]
open Cert.ReferenceIdeal.Facts₀ Cert.ReferenceIdeal.Facts

/-- The host's dense stage over 20000 nodes, without the final maximum, is `sageLin`. -/
theorem hostLin20000 (agg : FVec Ideal S20000x128 .f32) (cnt : FVec Ideal S20000x1 .f32) (x : FVec Ideal S20000x128 .f32)
    (wn wr : FVec Ideal S128x128 .f32) (b : FVec Ideal S128 .f32) :
    addf (addf (Host.dotGeneral dot_S20000x128_S128x128_S20000x128_1_0_0_1_n_n none (Host.divf agg (broadcastInDim S20000x128 ![0, 1] bcast_S20000x1_S20000x128_0_1 (maximumf cnt (broadcastInDim S20000x1 ![] bcast_S_S20000x1 (constant (F := Ideal) S_ .f32 0x3F800000#32))))) wn) (Host.dotGeneral dot_S20000x128_S128x128_S20000x128_1_0_0_1_n_n none x wr)) (broadcastInDim S20000x128 ![0, 1] bcast_S1x128_S20000x128_0_1 (broadcastInDim S1x128 ![1] bcast_S128_S1x128_1 b))
      = Cert.Lib.sageLin agg cnt x wn wr b :=
  Cert.Lib.hostSage_eq dot_S20000x128_S128x128_S20000x128_1_0_0_1_n_n_wf agg cnt x wn wr b
    bcast_S_S20000x1 bcast_S20000x1_S20000x128_0_1 bcast_S128_S1x128_1 bcast_S1x128_S20000x128_0_1

/-- The host's dense stage over 20000 nodes followed by the maximum with zero is `sageRelu`. -/
theorem hostRelu20000 (agg : FVec Ideal S20000x128 .f32) (cnt : FVec Ideal S20000x1 .f32) (x : FVec Ideal S20000x128 .f32)
    (wn wr : FVec Ideal S128x128 .f32) (b : FVec Ideal S128 .f32) :
    maximumf (addf (addf (Host.dotGeneral dot_S20000x128_S128x128_S20000x128_1_0_0_1_n_n none (Host.divf agg (broadcastInDim S20000x128 ![0, 1] bcast_S20000x1_S20000x128_0_1 (maximumf cnt (broadcastInDim S20000x1 ![] bcast_S_S20000x1 (constant (F := Ideal) S_ .f32 0x3F800000#32))))) wn) (Host.dotGeneral dot_S20000x128_S128x128_S20000x128_1_0_0_1_n_n none x wr)) (broadcastInDim S20000x128 ![0, 1] bcast_S1x128_S20000x128_0_1 (broadcastInDim S1x128 ![1] bcast_S128_S1x128_1 b))) (broadcastInDim S20000x128 ![] bcast_S_S20000x128 (constant (F := Ideal) S_ .f32 0x00000000#32))
      = Cert.Lib.sageRelu agg cnt x wn wr b :=
  Cert.Lib.hostSageRelu_eq dot_S20000x128_S128x128_S20000x128_1_0_0_1_n_n_wf agg cnt x wn wr b
    bcast_S_S20000x1 bcast_S20000x1_S20000x128_0_1 bcast_S128_S1x128_1 bcast_S1x128_S20000x128_0_1 bcast_S_S20000x128

/-- The host's dense stage over 100000 nodes, without the final maximum, is `sageLin`. -/
theorem hostLin100000 (agg : FVec Ideal S100000x128 .f32) (cnt : FVec Ideal S100000x1 .f32) (x : FVec Ideal S100000x128 .f32)
    (wn wr : FVec Ideal S128x128 .f32) (b : FVec Ideal S128 .f32) :
    addf (addf (Host.dotGeneral dot_S100000x128_S128x128_S100000x128_1_0_0_1_n_n none (Host.divf agg (broadcastInDim S100000x128 ![0, 1] bcast_S100000x1_S100000x128_0_1 (maximumf cnt (broadcastInDim S100000x1 ![] bcast_S_S100000x1 (constant (F := Ideal) S_ .f32 0x3F800000#32))))) wn) (Host.dotGeneral dot_S100000x128_S128x128_S100000x128_1_0_0_1_n_n none x wr)) (broadcastInDim S100000x128 ![0, 1] bcast_S1x128_S100000x128_0_1 (broadcastInDim S1x128 ![1] bcast_S128_S1x128_1 b))
      = Cert.Lib.sageLin agg cnt x wn wr b :=
  Cert.Lib.hostSage_eq dot_S100000x128_S128x128_S100000x128_1_0_0_1_n_n_wf agg cnt x wn wr b
    bcast_S_S100000x1 bcast_S100000x1_S100000x128_0_1 bcast_S128_S1x128_1 bcast_S1x128_S100000x128_0_1

/-- The host's dense stage over 100000 nodes followed by the maximum with zero is `sageRelu`. -/
theorem hostRelu100000 (agg : FVec Ideal S100000x128 .f32) (cnt : FVec Ideal S100000x1 .f32) (x : FVec Ideal S100000x128 .f32)
    (wn wr : FVec Ideal S128x128 .f32) (b : FVec Ideal S128 .f32) :
    maximumf (addf (addf (Host.dotGeneral dot_S100000x128_S128x128_S100000x128_1_0_0_1_n_n none (Host.divf agg (broadcastInDim S100000x128 ![0, 1] bcast_S100000x1_S100000x128_0_1 (maximumf cnt (broadcastInDim S100000x1 ![] bcast_S_S100000x1 (constant (F := Ideal) S_ .f32 0x3F800000#32))))) wn) (Host.dotGeneral dot_S100000x128_S128x128_S100000x128_1_0_0_1_n_n none x wr)) (broadcastInDim S100000x128 ![0, 1] bcast_S1x128_S100000x128_0_1 (broadcastInDim S1x128 ![1] bcast_S128_S1x128_1 b))) (broadcastInDim S100000x128 ![] bcast_S_S100000x128 (constant (F := Ideal) S_ .f32 0x00000000#32))
      = Cert.Lib.sageRelu agg cnt x wn wr b :=
  Cert.Lib.hostSageRelu_eq dot_S100000x128_S128x128_S100000x128_1_0_0_1_n_n_wf agg cnt x wn wr b
    bcast_S_S100000x1 bcast_S100000x1_S100000x128_0_1 bcast_S128_S1x128_1 bcast_S1x128_S100000x128_0_1 bcast_S_S100000x128

end Cert.ReferenceIdeal.Layer

end
-- ==== Proof.RNet.lean ====
/-
  The reference program's result as the same network function of the arguments.

  The reference is one straight line of host operations.  Stage by stage its values are the network's: a scatter of
  gathered rows is an aggregation (the reference scatters at the raw destination index and gathers at the wrapped source
  index); a scatter of ones is a count; the quotient by the clamped count, the two matrix products, the bias and the
  rectifier are one dense stage (`Cert.ReferenceIdeal.Layer`); the two final gathers, the product and the row sum are the
  decoder.  With every edge endpoint non-negative the wrap of a gather's index is the identity, and the reference's
  result is `Fns.net` of its arguments.
-/
import proofs.«135056_j88682484727898_2_alg».proof.Proof.Gen.ReferenceIdeal.Read
import proofs.«135056_j88682484727898_2_alg».proof.Proof.KFns
import proofs.«135056_j88682484727898_2_alg».proof.Proof.RLayer

set_option maxRecDepth 16384

noncomputable section

namespace Cert.Bridge

open Cert.ReferenceIdeal.Read Cert.KernelIdeal.Fns Idealize.ShloMosaic

variable [Cert.KernelIdeal.Facts] [Cert.ReferenceIdeal.Facts]

variable (x0 : (⟨2, ![100000, 128]⟩ : Shape).Idx → EReal) (x1 : (⟨2, ![20000, 128]⟩ : Shape).Idx → EReal)
  (x2 x3 x4 x5 : IVec (⟨1, ![500000]⟩ : Shape) 32)
  (x6 x7 x8 x9 x10 x11 x12 x13 : (⟨2, ![128, 128]⟩ : Shape).Idx → EReal) (x14 x15 x16 x17 : (⟨1, ![128]⟩ : Shape).Idx → EReal)

/-! ## First layer -/

theorem ref_aggM : val_main_v9 (F := Ideal) x0 x2 x3 = aggM x0 (wrap 100000#32 x2) x3 := rfl
theorem ref_cntM : val_main_v13 (F := Ideal) x3 = cntM x3 := rfl
theorem ref_aggU : val_main_v34 (F := Ideal) x1 x2 x3 = aggU x1 (wrap 20000#32 x3) x2 := rfl
theorem ref_cntU : val_main_v38 (F := Ideal) x2 = cntU x2 := rfl

theorem ref_hM (hs : Cert.IndexDomain.NonNeg x2) : val_main_v24 (F := Ideal) x0 x1 x2 x3 x6 x7 x14 = hM x0 x1 x2 x3 x6 x7 x14 := by
  refine (Cert.ReferenceIdeal.Layer.hostRelu20000 (val_main_v9 (F := Ideal) x0 x2 x3) (val_main_v13 (F := Ideal) x3) x1 x6 x7 x14).trans ?_
  rw [ref_aggM, ref_cntM, wrap_nonneg _ _ hs]
  rfl

theorem ref_hU (hd : Cert.IndexDomain.NonNeg x3) : val_main_v49 (F := Ideal) x0 x1 x2 x3 x8 x9 x15 = hU x0 x1 x2 x3 x8 x9 x15 := by
  refine (Cert.ReferenceIdeal.Layer.hostRelu100000 (val_main_v34 (F := Ideal) x1 x2 x3) (val_main_v38 (F := Ideal) x2) x0 x8 x9 x15).trans ?_
  rw [ref_aggU, ref_cntU, wrap_nonneg _ _ hd]
  rfl

/-! ## Second layer -/

theorem ref_aggM2 : val_main_v59 (F := Ideal) x0 x1 x2 x3 x8 x9 x15
    = aggM (val_main_v49 (F := Ideal) x0 x1 x2 x3 x8 x9 x15) (wrap 100000#32 x2) x3 := rfl
theorem ref_cntM2 : val_main_v63 (F := Ideal) x3 = cntM x3 := rfl
theorem ref_aggU2 : val_main_v83 (F := Ideal) x0 x1 x2 x3 x6 x7 x14
    = aggU (val_main_v24 (F := Ideal) x0 x1 x2 x3 x6 x7 x14) (wrap 20000#32 x3) x2 := rfl
theorem ref_cntU2 : val_main_v87 (F := Ideal) x2 = cntU x2 := rfl

theorem ref_hM2 (hs : Cert.IndexDomain.NonNeg x2) (hd : Cert.IndexDomain.NonNeg x3) : val_main_v73 (F := Ideal) x0 x1 x2 x3 x6 x7 x8 x9 x10 x11 x14 x15 x16
    = hM2 x0 x1 x2 x3 x6 x7 x8 x9 x10 x11 x14 x15 x16 := by
  refine (Cert.ReferenceIdeal.Layer.hostLin20000 (val_main_v59 (F := Ideal) x0 x1 x2 x3 x8 x9 x15) (val_main_v63 (F := Ideal) x3)
    (val_main_v24 (F := Ideal) x0 x1 x2 x3 x6 x7 x14) x10 x11 x16).trans ?_
  rw [ref_aggM2, ref_cntM2, ref_hU x0 x1 x2 x3 x8 x9 x15 hd, ref_hM x0 x1 x2 x3 x6 x7 x14 hs, wrap_nonneg _ _ hs]
  rfl

theorem ref_hU2 (hs : Cert.IndexDomain.NonNeg x2) (hd : Cert.IndexDomain.NonNeg x3) : val_main_v97 (F := Ideal) x0 x1 x2 x3 x6 x7 x8 x9 x12 x13 x14 x15 x17
    = hU2 x0 x1 x2 x3 x6 x7 x8 x9 x12 x13 x14 x15 x17 := by
  refine (Cert.ReferenceIdeal.Layer.hostLin100000 (val_main_v83 (F := Ideal) x0 x1 x2 x3 x6 x7 x14) (val_main_v87 (F := Ideal) x2)
    (val_main_v49 (F := Ideal) x0 x1 x2 x3 x8 x9 x15) x12 x13 x17).trans ?_
  rw [ref_aggU2, ref_cntU2, ref_hU x0 x1 x2 x3 x8 x9 x15 hd, ref_hM x0 x1 x2 x3 x6 x7 x14 hs, wrap_nonneg _ _ hd]
  rfl

/-! ## The decoder -/

theorem ref_decode : val_main_v113 (F := Ideal) x0 x1 x2 x3 x4 x5 x6 x7 x8 x9 x10 x11 x12 x13 x14 x15 x16 x17
    = decode (val_main_v97 (F := Ideal) x0 x1 x2 x3 x6 x7 x8 x9 x12 x13 x14 x15 x17)
        (val_main_v73 (F := Ideal) x0 x1 x2 x3 x6 x7 x8 x9 x10 x11 x14 x15 x16) (wrap 100000#32 x4) (wrap 20000#32 x5) := rfl

/-- The reference's result is the network function of its arguments. -/
theorem ref_net (hs : Cert.IndexDomain.NonNeg x2) (hd : Cert.IndexDomain.NonNeg x3) : val_main_v113 (F := Ideal) x0 x1 x2 x3 x4 x5 x6 x7 x8 x9 x10 x11 x12 x13 x14 x15 x16 x17
    = net x0 x1 x2 x3 x4 x5 x6 x7 x8 x9 x10 x11 x12 x13 x14 x15 x16 x17 := by
  rw [ref_decode, ref_hU2 x0 x1 x2 x3 x6 x7 x8 x9 x12 x13 x14 x15 x17 hs hd, ref_hM2 x0 x1 x2 x3 x6 x7 x8 x9 x10 x11 x14 x15 x16 hs hd]
  rfl

end Cert.Bridge

end
-- ==== Proof.lean ====
/-
  The certificate: a two-layer mean-aggregating graph network on a user–movie graph with an inner-product decoder, as a
  row-tiled kernel program against its plain reference, under "every float input is finite and every edge endpoint is
  non-negative".

  Both programs compute, for 500000 labelled (user, movie) pairs, the inner product of the pair's second-layer
  features.  A layer's stage is, per destination node, the mean of its neighbours' features through one linear map plus
  the node's own features through another plus a bias (first layer: then the maximum with zero).  The kernel program
  computes each of the four stages in tiles of 5000 rows and keeps the gathers and scatter-additions on the host, where
  it reads a negative index with the table's length added before scattering; the reference scatters at the raw index.
  On non-negative endpoints the two index vectors are equal, every other host operation is the same function in both
  programs, a tile's entry is the whole-array stage's entry, and the matrix products are the same finite sums on the
  extended reals (a change of float format is the identity there): both results are one function, `Fns.net`, of the
  arguments.  No law of arithmetic beyond reading the same sums is used, so finiteness of the floats is never opened.

  The three frames are the generated ones (the reference's is its generated run with the result dropped); the
  idealization rewrote nothing, so its ledger is empty.
-/
import proofs.«135056_j88682484727898_2_alg».proof.Defs
import proofs.«135056_j88682484727898_2_alg».proof.Proof.Gen.Kernel
import proofs.«135056_j88682484727898_2_alg».proof.Proof.Gen.Kernel.Skeleton
import proofs.«135056_j88682484727898_2_alg».proof.Proof.Gen.Kernel.Launch
import proofs.«135056_j88682484727898_2_alg».proof.Proof.Gen.Kernel.Points
import proofs.«135056_j88682484727898_2_alg».proof.Proof.Gen.Kernel.Frame
import proofs.«135056_j88682484727898_2_alg».proof.Proof.Gen.KernelIdeal
import proofs.«135056_j88682484727898_2_alg».proof.Proof.Gen.KernelIdeal.Skeleton
import proofs.«135056_j88682484727898_2_alg».proof.Proof.Gen.KernelIdeal.Launch
import proofs.«135056_j88682484727898_2_alg».proof.Proof.Gen.KernelIdeal.Points
import proofs.«135056_j88682484727898_2_alg».proof.Proof.Gen.KernelIdeal.Frame
import proofs.«135056_j88682484727898_2_alg».proof.Proof.Gen.ReferenceIdeal
import proofs.«135056_j88682484727898_2_alg».proof.Proof.Gen.Pre_finite_inputs
import proofs.«135056_j88682484727898_2_alg».proof.Proof.Gen.ReferenceIdeal.Run
import proofs.«135056_j88682484727898_2_alg».proof.Proof.Gen.ReferenceIdeal.Read
import proofs.«135056_j88682484727898_2_alg».proof.Proof.KRun
import proofs.«135056_j88682484727898_2_alg».proof.Proof.KValue
import proofs.«135056_j88682484727898_2_alg».proof.Proof.RNet
import proofs.«135056_j88682484727898_2_alg».proof.Proof.IndexDomain
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the network function of those arguments. -/
theorem algebraic : Cert.algebraic_KernelIdeal_ReferenceIdeal := by
  intro m ρ m' ρ' hpre hagree
  have hnn : ∀ c : Dev Cert.KernelIdeal.nD, Cert.IndexDomain.NonNeg (Cert.KernelIdeal.Value.A2 m c) ∧ Cert.IndexDomain.NonNeg (Cert.KernelIdeal.Value.A3 m c) :=
    fun c => Cert.IndexDomain.nonneg_of_pre _ _ _ _ _ _ _ _ _ _ _ _ _ _ _ _ _ _ (hpre c)
  refine ⟨fun c => Cert.KernelIdeal.Fns.net (Cert.KernelIdeal.Value.A0 m c) (Cert.KernelIdeal.Value.A1 m c) (Cert.KernelIdeal.Value.A2 m c) (Cert.KernelIdeal.Value.A3 m c) (Cert.KernelIdeal.Value.A4 m c) (Cert.KernelIdeal.Value.A5 m c) (Cert.KernelIdeal.Value.A6 m c) (Cert.KernelIdeal.Value.A7 m c) (Cert.KernelIdeal.Value.A8 m c) (Cert.KernelIdeal.Value.A9 m c) (Cert.KernelIdeal.Value.A10 m c) (Cert.KernelIdeal.Value.A11 m c) (Cert.KernelIdeal.Value.A12 m c) (Cert.KernelIdeal.Value.A13 m c) (Cert.KernelIdeal.Value.A14 m c) (Cert.KernelIdeal.Value.A15 m c) (Cert.KernelIdeal.Value.A16 m c) (Cert.KernelIdeal.Value.A17 m c), ?_, ?_⟩
  · exact (θ_run Cert.KernelIdeal.defs _ _).mono
      (fun r h c => ⟨(h c).1.trans (Cert.KernelIdeal.Value.result_eq m ρ c (hnn c).1 (hnn c).2), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17⟩ := hagree c
    rw [Cert.ReferenceIdeal.Read.val_main_v113_eq, e0, e1, e2, e3, e4, e5, e6, e7, e8, e9, e10, e11, e12, e13, e14, e15, e16, e17]
    exact Cert.Bridge.ref_net _ _ _ _ _ _ _ _ _ _ _ _ _ _ _ _ _ _ (hnn c).1 (hnn c).2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
